-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S128x64 .f32) (main_arg7 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128x128 .f32) (main_arg4 : FVec F S128 .f32) (main_arg5 : FVec F S128x64 .f32) (main_arg6 : FVec F S128x64 .f32) (main_arg7 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x128 : Shape := ⟨2, ![1, 128]⟩
abbrev S2000x128 : Shape := ⟨2, ![2000, 128]⟩
abbrev S800000x128 : Shape := ⟨2, ![800000, 128]⟩
abbrev S1x64 : Shape := ⟨2, ![1, 64]⟩
abbrev S50000x64 : Shape := ⟨2, ![50000, 64]⟩
abbrev S2000x1 : Shape := ⟨2, ![2000, 1]⟩
abbrev S2000x64 : Shape := ⟨2, ![2000, 64]⟩
abbrev S800000x64 : Shape := ⟨2, ![800000, 64]⟩

abbrev nBuf : Space → Nat
  | .hbm => 60
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S128x64, .f32⟩
  | .hbm, ⟨7, _⟩ => ⟨S64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S1x128, .f32⟩
  | .hbm, ⟨26, _⟩ => ⟨S50000x128, .bf16⟩
  | .hbm, ⟨27, _⟩ => ⟨S50000x128, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x128, .bf16⟩
  | .hbm, ⟨37, _⟩ => ⟨S800000x128, .f32⟩
  | .hbm, ⟨38, _⟩ => ⟨S_, .f32⟩
  | .hbm, ⟨39, _⟩ => ⟨S50000x128, .f32⟩
  | .hbm, ⟨40, _⟩ => ⟨S800000x1, .i32⟩
  | .hbm, ⟨41, _⟩ => ⟨S50000x128, .f32⟩
  | .hbm, ⟨42, _⟩ => ⟨S1x64, .f32⟩
  | .hbm, ⟨43, _⟩ => ⟨S50000x64, .bf16⟩
  | .hbm, ⟨44, _⟩ => ⟨S50000x64, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x64, .bf16⟩
  | .hbm, ⟨54, _⟩ => ⟨S800000x64, .f32⟩
  | .hbm, ⟨55, _⟩ => ⟨S_, .f32⟩
  | .hbm, ⟨56, _⟩ => ⟨S50000x64, .f32⟩
  | .hbm, ⟨57, _⟩ => ⟨S800000x1, .i32⟩
  | .hbm, ⟨58, _⟩ => ⟨S50000x64, .f32⟩
  | .hbm, ⟨59, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S128x128, .f32⟩
  | .local _ .vmem, ⟨4, _⟩ => ⟨S1x128, .f32⟩
  | .local _ .vmem, ⟨5, _⟩ => ⟨S2000x128, .bf16⟩
  | .local _ .vmem, ⟨6, _⟩ => ⟨S2000x128, .bf16⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x1, .f32⟩
  | .local _ .vmem, ⟨12, _⟩ => ⟨S2000x1, .f32⟩
  | .local _ .vmem, ⟨13, _⟩ => ⟨S2000x128, .f32⟩
  | .local _ .vmem, ⟨14, _⟩ => ⟨S2000x128, .f32⟩
  | .local _ .vmem, ⟨15, _⟩ => ⟨S128x64, .f32⟩
  | .local _ .vmem, ⟨16, _⟩ => ⟨S128x64, .f32⟩
  | .local _ .vmem, ⟨17, _⟩ => ⟨S1x64, .f32⟩
  | .local _ .vmem, ⟨18, _⟩ => ⟨S2000x64, .bf16⟩
  | .local _ .vmem, ⟨19, _⟩ => ⟨S2000x64, .bf16⟩
  | .local _ .vmem, ⟨20, _⟩ => ⟨S2000x64, .f32⟩
  | .local _ .vmem, ⟨21, _⟩ => ⟨S2000x64, .f32⟩
  | .local _ .vmem, ⟨22, _⟩ => ⟨S2000x64, .f32⟩
  | .local _ .vmem, ⟨23, _⟩ => ⟨S2000x64, .f32⟩
  | .local _ .vmem, ⟨24, _⟩ => ⟨S2000x1, .f32⟩
  | .local _ .vmem, ⟨25, _⟩ => ⟨S2000x1, .f32⟩
  | .local _ .vmem, ⟨26, _⟩ => ⟨S2000x64, .f32⟩
  | .local _ .vmem, ⟨27, _⟩ => ⟨S2000x64, .f32⟩
  | .local _ .vmem, ⟨28, _⟩ => ⟨S2000x64, .f32⟩
  | .local _ .vmem, ⟨29, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14_0 : Ref sig .tc := ⟨.hbm, 26, rfl⟩
abbrev main_v14_1 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27_0 : Ref sig .tc := ⟨.hbm, 43, rfl⟩
abbrev main_v27_1 : Ref sig .tc := ⟨.hbm, 44, rfl⟩
abbrev main_c_5 : Ref sig .tc := ⟨.hbm, 45, rfl⟩
abbrev main_v28 : Ref sig .tc := ⟨.hbm, 46, rfl⟩
abbrev main_v29 : Ref sig .tc := ⟨.hbm, 47, rfl⟩
abbrev main_c_6 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_7 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg3_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc1_sem7_0 : DmaSem sig := 20
abbrev cc1_sem7_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem3_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x64 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S2000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  packedbf16_S2000x128_S2000x128_0_0 : (Rect.unit (s := S2000x128) ![0, 0] S2000x128.size inb_S2000x128_S2000x128_0_0).PackedRows (EltTy.packing .bf16)
  bcast_S_S50000x128 : S_.BroadcastsInDim S50000x128 (![] : Fin 0 → Fin S50000x128.rank)
  shapeCasts_S64_S1x64 : S64.ShapeCasts S1x64
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  packedbf16_S2000x64_S2000x64_0_0 : (Rect.unit (s := S2000x64) ![0, 0] S2000x64.size inb_S2000x64_S2000x64_0_0).PackedRows (EltTy.packing .bf16)
  bcast_S_S50000x64 : S_.BroadcastsInDim S50000x64 (![] : Fin 0 → Fin S50000x64.rank)
  shapeCasts_S2000x64_S2000x64 : S2000x64.ShapeCasts S2000x64
  broadcasts_S2000x1_S2000x64 : S2000x1.Broadcasts S2000x64
  scatter_S50000_S800000x1_S800000_n_0_0_1_wf : ScatterDims.WF S50000 S800000x1 S800000 [] [0] [0] 1
  dot_S2000x128_S128x128_S2000x128_1_0_0_1_n_n_wf : DotDims.WF S2000x128 S128x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x64_S2000x64_1_0_0_1_n_n_wf : DotDims.WF S2000x128 S128x64 S2000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S50000x128.size a
  hwx0_4 : ∀ i : grid0.Coords, EltTy.bits .bf16 = 32 ∨ (Rect.block (s := S50000x128) S2000x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x64.size a ≤ S50000x64.size a
  hwx1_6 : ∀ i : grid1.Coords, EltTy.bits .bf16 = 32 ∨ (Rect.block (s := S50000x64) S2000x64.size (cc1_transform_6 i) (hinb1_6 i)).WholeWords (EltTy.packing .bf16)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x64.size a ≤ S50000x64.size a
  hwx1_7 : ∀ i : grid1.Coords, EltTy.bits .f32 = 32 ∨ (Rect.block (s := S50000x64) S2000x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S50000x64.size a
  hwx2_2 : ∀ i : grid2.Coords, EltTy.bits .f32 = 32 ∨ (Rect.block (s := S50000x64) S2000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x64.size a ≤ S50000x64.size a
  hwx2_3 : ∀ i : grid2.Coords, EltTy.bits .f32 = 32 ∨ (Rect.block (s := S50000x64) S2000x64.size (cc2_transform_3 i) (hinb2_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14_0) S2000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v14_1) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v25) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14_1) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v26) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v27_0) S2000x64.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v27_1) S2000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v38) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v27_1) S2000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v39) S2000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S50000x64 : Shape := ⟨2, ![50000, 64]⟩
abbrev S800000x64 : Shape := ⟨2, ![800000, 64]⟩
abbrev S1x64 : Shape := ⟨2, ![1, 64]⟩

abbrev nBuf : Space → Nat
  | .hbm => 77
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S128x64, .f32⟩
  | .hbm, ⟨7, _⟩ => ⟨S64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S50000x128, .f32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x128, .f32⟩
  | .hbm, ⟨22, _⟩ => ⟨S_, .f32⟩
  | .hbm, ⟨23, _⟩ => ⟨S50000x128, .f32⟩
  | .hbm, ⟨24, _⟩ => ⟨S800000x1, .i32⟩
  | .hbm, ⟨25, _⟩ => ⟨S50000x128, .f32⟩
  | .hbm, ⟨26, _⟩ => ⟨S_, .f32⟩
  | .hbm, ⟨27, _⟩ => ⟨S800000, .f32⟩
  | .hbm, ⟨28, _⟩ => ⟨S_, .f32⟩
  | .hbm, ⟨29, _⟩ => ⟨S50000, .f32⟩
  | .hbm, ⟨30, _⟩ => ⟨S800000x1, .i32⟩
  | .hbm, ⟨31, _⟩ => ⟨S50000, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S50000x1, .f32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S1x128, .f32⟩
  | .hbm, ⟨41, _⟩ => ⟨S50000x128, .f32⟩
  | .hbm, ⟨42, _⟩ => ⟨S50000x128, .f32⟩
  | .hbm, ⟨43, _⟩ => ⟨S_, .f32⟩
  | .hbm, ⟨44, _⟩ => ⟨S50000x128, .f32⟩
  | .hbm, ⟨45, _⟩ => ⟨S50000x128, .f32⟩
  | .hbm, ⟨46, _⟩ => ⟨S50000x64, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x64, .f32⟩
  | .hbm, ⟨56, _⟩ => ⟨S_, .f32⟩
  | .hbm, ⟨57, _⟩ => ⟨S50000x64, .f32⟩
  | .hbm, ⟨58, _⟩ => ⟨S800000x1, .i32⟩
  | .hbm, ⟨59, _⟩ => ⟨S50000x64, .f32⟩
  | .hbm, ⟨60, _⟩ => ⟨S_, .f32⟩
  | .hbm, ⟨61, _⟩ => ⟨S800000, .f32⟩
  | .hbm, ⟨62, _⟩ => ⟨S_, .f32⟩
  | .hbm, ⟨63, _⟩ => ⟨S50000, .f32⟩
  | .hbm, ⟨64, _⟩ => ⟨S800000x1, .i32⟩
  | .hbm, ⟨65, _⟩ => ⟨S50000, .f32⟩
  | .hbm, ⟨66, _⟩ => ⟨S_, .f32⟩
  | .hbm, ⟨67, _⟩ => ⟨S50000, .f32⟩
  | .hbm, ⟨68, _⟩ => ⟨S50000, .f32⟩
  | .hbm, ⟨69, _⟩ => ⟨S50000x1, .f32⟩
  | .hbm, ⟨70, _⟩ => ⟨S50000x64, .f32⟩
  | .hbm, ⟨71, _⟩ => ⟨S50000x64, .f32⟩
  | .hbm, ⟨72, _⟩ => ⟨S50000x64, .f32⟩
  | .hbm, ⟨73, _⟩ => ⟨S50000x64, .f32⟩
  | .hbm, ⟨74, _⟩ => ⟨S1x64, .f32⟩
  | .hbm, ⟨75, _⟩ => ⟨S50000x64, .f32⟩
  | .hbm, ⟨76, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_v30 : Ref sig .tc := ⟨.hbm, 46, rfl⟩
abbrev main_c_4 : Ref sig .tc := ⟨.hbm, 47, rfl⟩
abbrev main_v31 : Ref sig .tc := ⟨.hbm, 48, rfl⟩
abbrev main_v32 : Ref sig .tc := ⟨.hbm, 49, rfl⟩
abbrev main_c_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_7 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_9 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.KernelRun.lean ====
/-
  The kernel program's run, with its result named: every weakly fair execution from a memory with zero counters
  terminates without a fault, leaves the eight argument arrays as launched, and leaves in the result buffer the
  contents at the last segment boundary (the fold of the three calls and the host operations between them).
-/
import proofs.«114476_j46712064311554_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run over the six segments, the last thread state read against the final state: the result buffer holds the
    last boundary's contents, each argument its launch contents. -/
theorem run : θ_run defs (onTc (τ := τ) (main (F := F))) ⟨m, fun _ => 0, ρ⟩ (fun r => ∀ c : Dev nD,
      r.2.mem ((c.tc : Thread nD τ).loc main_v39) = W6 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v39 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

end Cert.KernelIdeal.RunValue

end
-- ==== Proof.Spec.lean ====
/-
  The mathematics of the two-layer graph convolution, over the extended reals, on whole arrays.
  A layer maps node features `X` (50000 rows) to: the matrix product `X·W` gathered along the edges and summed into
  the destination rows, each row scaled by the reciprocal of its in-degree (at least one), plus the residual
  `X·L + b`. The functions below are the pieces of that, each ONE function of whole arrays, index by index; the
  kernel's blocks and the reference's operations are both read as these.
-/
import Idealize.ShloMosaic.PureOps.Ideal
import Idealize.ShloMosaic.PureOps.Ideal.Laws
import Idealize.ShloMosaic.Lib.ValueIdx
import Idealize.ShloMosaic.Lib.IdealHost

noncomputable section

namespace Cert.GraphConv

open Idealize.ShloMosaic Idealize.ShloMosaic.ValueIdx
open scoped BigOperators

/-- The matrix product of a 50000 × 128 array with a 128 × n one: entry (r, j) is `∑ k, X r k · W k j`. -/
def matProd {n : Nat} (X : (⟨2, ![50000, 128]⟩ : Shape).Idx → EReal) (W : (⟨2, ![128, n]⟩ : Shape).Idx → EReal) :
    (⟨2, ![50000, n]⟩ : Shape).Idx → EReal :=
  fun i => ∑ k : Fin 128, X (ix2 (⟨(i 0).val, (i 0).isLt⟩ : Fin 50000) k) * W (ix2 k (⟨(i 1).val, (i 1).isLt⟩ : Fin n))

/-- A row vector (1 × n) added to every row. -/
def addRow {n : Nat} (M : (⟨2, ![50000, n]⟩ : Shape).Idx → EReal) (b : (⟨2, ![1, n]⟩ : Shape).Idx → EReal) :
    (⟨2, ![50000, n]⟩ : Shape).Idx → EReal :=
  fun i => M i + b (ix2 (0 : Fin 1) (⟨(i 1).val, (i 1).isLt⟩ : Fin n))

/-- Row `r`, column `j`: `A r j · ρ r + S r j`, with `ρ` a column vector (one entry per row). -/
def scaleAdd {n : Nat} (A : (⟨2, ![50000, n]⟩ : Shape).Idx → EReal) (ρ : (⟨2, ![50000, 1]⟩ : Shape).Idx → EReal)
    (S : (⟨2, ![50000, n]⟩ : Shape).Idx → EReal) : (⟨2, ![50000, n]⟩ : Shape).Idx → EReal :=
  fun i => A i * ρ (ix2 (⟨(i 0).val, (i 0).isLt⟩ : Fin 50000) (0 : Fin 1)) + S i

/-- The positive part, entry by entry (the zero is the f32 zero pattern read as an extended real). -/
def posPart {n : Nat} (A : (⟨2, ![50000, n]⟩ : Shape).Idx → EReal) : (⟨2, ![50000, n]⟩ : Shape).Idx → EReal :=
  fun i => max (A i) (Ideal.ofBits .f32 0x00000000#32)

/-- The reciprocal of a count clamped below by one, as a column: row `r` holds `1 / max (cnt r) 1`. -/
def recipCol (cnt : (⟨1, ![50000]⟩ : Shape).Idx → EReal) : (⟨2, ![50000, 1]⟩ : Shape).Idx → EReal :=
  fun i => Ideal.div (Ideal.ofBits .f32 0x3F800000#32)
    (max (cnt (ix1 (⟨(i 0).val, (i 0).isLt⟩ : Fin 50000))) (Ideal.ofBits .f32 0x3F800000#32))

/-- A vector of `n` entries as a 1 × n row. -/
def rowOf {n : Nat} (b : (⟨1, ![n]⟩ : Shape).Idx → EReal) : (⟨2, ![1, n]⟩ : Shape).Idx → EReal :=
  fun i => b (ix1 (⟨(i 1).val, (i 1).isLt⟩ : Fin n))

/-- One graph-convolution layer: the product `X·W` aggregated along the edges (`agg`, whatever it is), each row
    scaled by `ρ`, plus the residual `X·L + b`. -/
def layer {n : Nat} (agg : ((⟨2, ![50000, n]⟩ : Shape).Idx → EReal) → ((⟨2, ![50000, n]⟩ : Shape).Idx → EReal))
    (ρ : (⟨2, ![50000, 1]⟩ : Shape).Idx → EReal) (X : (⟨2, ![50000, 128]⟩ : Shape).Idx → EReal)
    (W L : (⟨2, ![128, n]⟩ : Shape).Idx → EReal) (b : (⟨2, ![1, n]⟩ : Shape).Idx → EReal) :
    (⟨2, ![50000, n]⟩ : Shape).Idx → EReal :=
  scaleAdd (agg (matProd X W)) ρ (addRow (matProd X L) b)

/-- The two layers, the positive part between them. -/
def network (agg1 : ((⟨2, ![50000, 128]⟩ : Shape).Idx → EReal) → ((⟨2, ![50000, 128]⟩ : Shape).Idx → EReal))
    (agg2 : ((⟨2, ![50000, 64]⟩ : Shape).Idx → EReal) → ((⟨2, ![50000, 64]⟩ : Shape).Idx → EReal))
    (ρ : (⟨2, ![50000, 1]⟩ : Shape).Idx → EReal) (X : (⟨2, ![50000, 128]⟩ : Shape).Idx → EReal)
    (W1 L1 : (⟨2, ![128, 128]⟩ : Shape).Idx → EReal) (b1 : (⟨2, ![1, 128]⟩ : Shape).Idx → EReal)
    (W2 L2 : (⟨2, ![128, 64]⟩ : Shape).Idx → EReal) (b2 : (⟨2, ![1, 64]⟩ : Shape).Idx → EReal) :
    (⟨2, ![50000, 64]⟩ : Shape).Idx → EReal :=
  layer agg2 ρ (posPart (layer agg1 ρ X W1 L1 b1)) W2 L2 b2

/-! ## The one law between the two programs: scaling by the reciprocal of the clamped count is dividing by it -/

/-- A count clamped below by one is not zero. -/
theorem max_one_ne_zero (c : EReal) : max c (Ideal.ofBits .f32 0x3F800000#32) ≠ 0 := by
  rw [Ideal.ofBits_one_f32]
  intro h
  have h1 : (1 : EReal) ≤ max c 1 := le_max_right _ _
  rw [h] at h1
  exact absurd h1 (by norm_num)

/-- `s · (1 / max c 1) = s / max c 1` on the extended reals: the divisor is not zero, so both sides are
    `s · (max c 1)⁻¹`, whatever `s` and `c` are (infinite values included). -/
theorem mul_recip_eq_div (s c : EReal) :
    s * Ideal.div (Ideal.ofBits .f32 0x3F800000#32) (max c (Ideal.ofBits .f32 0x3F800000#32))
      = Ideal.div s (max c (Ideal.ofBits .f32 0x3F800000#32)) := by
  have h := max_one_ne_zero c
  unfold Ideal.div
  rw [if_neg h, if_neg h, Ideal.ofBits_one_f32, one_mul]

end Cert.GraphConv

end
-- ==== Proof.LinearPair.lean ====
/-
  The first kernel call: on each block of 2000 rows of the node features `X`, the two products `X·W` and
  `X·L + b` with the whole 128 × 128 weight matrices (a change of float format is the identity on the extended
  reals, so the narrowing of the operands and of the first product is invisible here). Each block is the
  restriction of ONE function of the whole arrays (`matProd`, `addRow`), and the 25 row blocks tile the rows.
-/
import proofs.«114476_j46712064311554_2_alg».proof.Proof.Gen.KernelIdeal.Frame
import proofs.«114476_j46712064311554_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.LinearPair

open Idealize.ShloMosaic Idealize.ShloMosaic.TcCoe Idealize.SL.Sem Idealize.ShloMosaic.ValueIdx
open Cert.KernelIdeal Cert.KernelIdeal.Gen Cert.GraphConv
open Idealize.ShloMosaic.Pipeline (Dat Cfg Window)
open scoped BigOperators

variable (V : (c : Dev nD) → (b : Ref sig .tc) → Buf (Elt Ideal) ((c : Thread nD τ).loc b))

local notation "D128" => dot_S2000x128_S128x128_S2000x128_1_0_0_1_n_n

theorem zeros2 : (![0, 0] : Fin 2 → Nat) = fun _ => 0 := funext fun a => by fin_cases a <;> rfl

/-! ## A block product as a sum over the 128 contracted coordinates -/

theorem lhs_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The block product into a zero accumulator, entry (p, q): `∑ k, x p k · w k q`. -/
theorem blockProd_apply (xb : FVec Ideal S2000x128 .bf16) (w : FVec Ideal S128x128 .bf16) (y : S2000x128.Idx) :
    FloatOps.matmul dot_S2000x128_S128x128_S2000x128_1_0_0_1_n_n none xb w (constant S2000x128 .f32 0x00000000#32) y
      = ∑ k : Fin 128, xb (ix2 (⟨(y 0).val, (y 0).isLt⟩ : Fin 2000) k) * w (ix2 k (⟨(y 1).val, (y 1).isLt⟩ : Fin 128)) := by
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx y ((ValueIdx.contrEquiv1 dot_S2000x128_S128x128_S2000x128_1_0_0_1_n_n 128 rfl rfl).symm k) = ix2 (⟨(y 0).val, (y 0).isLt⟩ : Fin 2000) k := funext fun a => Fin.ext (by
    match a with
    | ⟨0, _⟩ => exact lhs_0 _ _
    | ⟨1, _⟩ => exact (lhs_1 _ _).trans hk)
  have er : dot_S2000x128_S128x128_S2000x128_1_0_0_1_n_n.rhsIdx y ((ValueIdx.contrEquiv1 dot_S2000x128_S128x128_S2000x128_1_0_0_1_n_n 128 rfl rfl).symm k) = ix2 k (⟨(y 1).val, (y 1).isLt⟩ : Fin 128) := funext fun a => Fin.ext (by
    match a with
    | ⟨0, _⟩ => exact (rhs_0 _ _).trans hk
    | ⟨1, _⟩ => exact rhs_1 _ _)
  rw [el, er]

/-- The first product's payload at an entry. -/
theorem payH_apply (xb : Vec Ideal S2000x128 .f32) (w : Vec Ideal S128x128 .f32) (y : S2000x128.Idx) :
    k0_pay3 xb w y = ∑ k : Fin 128, xb (ix2 (⟨(y 0).val, (y 0).isLt⟩ : Fin 2000) k) * w (ix2 k (⟨(y 1).val, (y 1).isLt⟩ : Fin 128)) :=
  blockProd_apply (truncf .bf16 xb bitsLt_bf16_f32) (truncf .bf16 w bitsLt_bf16_f32) y

/-- The residual's payload at an entry: the product plus the bias of the entry's column. -/
theorem payS_apply (xb : Vec Ideal S2000x128 .f32) (w : Vec Ideal S128x128 .f32) (b : Vec Ideal S1x128 .f32) (y : S2000x128.Idx) :
    k0_pay2 xb w b y = (∑ k : Fin 128, xb (ix2 (⟨(y 0).val, (y 0).isLt⟩ : Fin 2000) k) * w (ix2 k (⟨(y 1).val, (y 1).isLt⟩ : Fin 128)))
      + b (ix2 (0 : Fin 1) (⟨(y 1).val, (y 1).isLt⟩ : Fin 128)) := by
  unfold k0_pay2
  simp only [shapeCast_self]
  show FloatOps.matmul dot_S2000x128_S128x128_S2000x128_1_0_0_1_n_n none (k0_pay1 xb) (truncf .bf16 w bitsLt_bf16_f32) (constant S2000x128 .f32 0x00000000#32) y
      + broadcastTo S2000x128 b broadcasts_S1x128_S2000x128 y = _
  rw [broadcastTo_apply b broadcasts_S1x128_S2000x128 y (ix2 (0 : Fin 1) (⟨(y 1).val, (y 1).isLt⟩ : Fin 128)) (fun a => by
    match a with
    | ⟨0, _⟩ => show 0 = if (1 : Nat) = 1 then 0 else (y 0).val; rw [if_pos rfl]
    | ⟨1, _⟩ => show (y 1).val = if (128 : Nat) = 1 then 0 else (y 1).val; rw [if_neg (by decide)])]
  exact congrArg (· + _) (blockProd_apply (truncf .bf16 xb bitsLt_bf16_f32) (truncf .bf16 w bitsLt_bf16_f32) y)

/-! ## From blocks to arrays -/

/-- One term of a product, the two arrays read at two indices. -/
def prodTerm (X : S50000x128.Idx → EReal) (W : S128x128.Idx → EReal) (i0 : S50000x128.Idx) (i1 : S128x128.Idx) : EReal := X i0 * W i1

/-- The bias row read at an index. -/
def biasTerm (b : S1x128.Idx → EReal) (i : S1x128.Idx) : EReal := b i

/-- The index maps over the grid: the features and both outputs sit at row block `t`; the weights and the bias are whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- What point `t` writes back through the first output window is block `t` of `X·W`. -/
theorem flushedH_eq (c : Dev nD) (t : Fin cfg0.N) :
    (dat0 V c).flushed 4 t = ((cfg0.win 4).blk t).view.read (Elt Ideal) (matProd (V c main_arg0) (V c main_arg2)) := by
  show (cfg0.win 4).cut (grid0.coords t) ((dat0 V c).after 4 t) = _
  rw [after0_4]
  unfold out0_4
  rw [View.canon_unit_zero zeros2]
  simp only [View.ld_unit_zero (S := S2000x128) zeros2, View.ld_unit_zero (S := S128x128) zeros2]
  obtain ⟨a0, a1, b0, b1, c0, c1, d0, d1, e0, e1, f0, f1⟩ := idx_facts t
  funext j
  refine (payH_apply _ _ j).trans ?_
  have hj0 : (j 0).val < 2000 := (j 0).isLt
  have hj1 : (j 1).val < 128 := (j 1).isLt
  have hx : ∀ k : Fin 128, ((cfg0.win 0).blk t).view.emb (ix2 (⟨(j 0).val, (j 0).isLt⟩ : Fin 2000) k)
      = ix2 (⟨((((cfg0.win 4).blk t).view.emb j) 0).val, ((((cfg0.win 4).blk t).view.emb j) 0).isLt⟩ : Fin 50000) k := fun k => by
    funext a; apply Fin.ext
    match a with
    | ⟨0, _⟩ => show win0_0.index t (0 : Fin 2) * 2000 + 1 * (j 0).val = win0_4.index t (0 : Fin 2) * 2000 + 1 * (j 0).val; omega
    | ⟨1, _⟩ => show win0_0.index t (1 : Fin 2) * 128 + 1 * k.val = k.val; omega
  have hw : ∀ k : Fin 128, ((cfg0.win 1).blk t).view.emb (ix2 k (⟨(j 1).val, (j 1).isLt⟩ : Fin 128))
      = ix2 k (⟨((((cfg0.win 4).blk t).view.emb j) 1).val, ((((cfg0.win 4).blk t).view.emb j) 1).isLt⟩ : Fin 128) := fun k => by
    funext a; apply Fin.ext
    match a with
    | ⟨0, _⟩ => show win0_1.index t (0 : Fin 2) * 128 + 1 * k.val = k.val; omega
    | ⟨1, _⟩ => show win0_1.index t (1 : Fin 2) * 128 + 1 * (j 1).val = win0_4.index t (1 : Fin 2) * 128 + 1 * (j 1).val; omega
  show ∑ k : Fin 128, prodTerm (V c main_arg0) (V c main_arg2) (((cfg0.win 0).blk t).view.emb (ix2 (⟨(j 0).val, (j 0).isLt⟩ : Fin 2000) k))
        (((cfg0.win 1).blk t).view.emb (ix2 k (⟨(j 1).val, (j 1).isLt⟩ : Fin 128)))
    = ∑ k : Fin 128, prodTerm (V c main_arg0) (V c main_arg2) (ix2 (⟨((((cfg0.win 4).blk t).view.emb j) 0).val, ((((cfg0.win 4).blk t).view.emb j) 0).isLt⟩ : Fin 50000) k)
        (ix2 k (⟨((((cfg0.win 4).blk t).view.emb j) 1).val, ((((cfg0.win 4).blk t).view.emb j) 1).isLt⟩ : Fin 128))
  exact Finset.sum_congr rfl fun k _ => by rw [hx k, hw k]

/-- What point `t` writes back through the second output window is block `t` of `X·L` plus the bias row. -/
theorem flushedS_eq (c : Dev nD) (t : Fin cfg0.N) :
    (dat0 V c).flushed 5 t = ((cfg0.win 5).blk t).view.read (Elt Ideal) (addRow (matProd (V c main_arg0) (V c main_arg3)) (V c main_v13)) := by
  show (cfg0.win 5).cut (grid0.coords t) ((dat0 V c).after 5 t) = _
  rw [after0_5]
  unfold out0_5
  rw [View.canon_unit_zero zeros2]
  simp only [View.ld_unit_zero (S := S2000x128) zeros2, View.ld_unit_zero (S := S128x128) zeros2, View.ld_unit_zero (S := S1x128) zeros2]
  obtain ⟨a0, a1, b0, b1, c0, c1, d0, d1, e0, e1, f0, f1⟩ := idx_facts t
  funext j
  refine (payS_apply _ _ _ j).trans ?_
  have hj0 : (j 0).val < 2000 := (j 0).isLt
  have hj1 : (j 1).val < 128 := (j 1).isLt
  have hx : ∀ k : Fin 128, ((cfg0.win 0).blk t).view.emb (ix2 (⟨(j 0).val, (j 0).isLt⟩ : Fin 2000) k)
      = ix2 (⟨((((cfg0.win 5).blk t).view.emb j) 0).val, ((((cfg0.win 5).blk t).view.emb j) 0).isLt⟩ : Fin 50000) k := fun k => by
    funext a; apply Fin.ext
    match a with
    | ⟨0, _⟩ => show win0_0.index t (0 : Fin 2) * 2000 + 1 * (j 0).val = win0_5.index t (0 : Fin 2) * 2000 + 1 * (j 0).val; omega
    | ⟨1, _⟩ => show win0_0.index t (1 : Fin 2) * 128 + 1 * k.val = k.val; omega
  have hw : ∀ k : Fin 128, ((cfg0.win 2).blk t).view.emb (ix2 k (⟨(j 1).val, (j 1).isLt⟩ : Fin 128))
      = ix2 k (⟨((((cfg0.win 5).blk t).view.emb j) 1).val, ((((cfg0.win 5).blk t).view.emb j) 1).isLt⟩ : Fin 128) := fun k => by
    funext a; apply Fin.ext
    match a with
    | ⟨0, _⟩ => show win0_2.index t (0 : Fin 2) * 128 + 1 * k.val = k.val; omega
    | ⟨1, _⟩ => show win0_2.index t (1 : Fin 2) * 128 + 1 * (j 1).val = win0_5.index t (1 : Fin 2) * 128 + 1 * (j 1).val; omega
  have hb : ((cfg0.win 3).blk t).view.emb (ix2 (0 : Fin 1) (⟨(j 1).val, (j 1).isLt⟩ : Fin 128))
      = ix2 (0 : Fin 1) (⟨((((cfg0.win 5).blk t).view.emb j) 1).val, ((((cfg0.win 5).blk t).view.emb j) 1).isLt⟩ : Fin 128) := by
    funext a; apply Fin.ext
    match a with
    | ⟨0, _⟩ => show win0_3.index t (0 : Fin 2) * 1 + 1 * 0 = 0; omega
    | ⟨1, _⟩ => show win0_3.index t (1 : Fin 2) * 128 + 1 * (j 1).val = win0_5.index t (1 : Fin 2) * 128 + 1 * (j 1).val; omega
  show (∑ k : Fin 128, prodTerm (V c main_arg0) (V c main_arg3) (((cfg0.win 0).blk t).view.emb (ix2 (⟨(j 0).val, (j 0).isLt⟩ : Fin 2000) k))
        (((cfg0.win 2).blk t).view.emb (ix2 k (⟨(j 1).val, (j 1).isLt⟩ : Fin 128))))
      + biasTerm (V c main_v13) (((cfg0.win 3).blk t).view.emb (ix2 (0 : Fin 1) (⟨(j 1).val, (j 1).isLt⟩ : Fin 128)))
    = (∑ k : Fin 128, prodTerm (V c main_arg0) (V c main_arg3) (ix2 (⟨((((cfg0.win 5).blk t).view.emb j) 0).val, ((((cfg0.win 5).blk t).view.emb j) 0).isLt⟩ : Fin 50000) k)
        (ix2 k (⟨((((cfg0.win 5).blk t).view.emb j) 1).val, ((((cfg0.win 5).blk t).view.emb j) 1).isLt⟩ : Fin 128)))
      + biasTerm (V c main_v13) (ix2 (0 : Fin 1) (⟨((((cfg0.win 5).blk t).view.emb j) 1).val, ((((cfg0.win 5).blk t).view.emb j) 1).isLt⟩ : Fin 128))
  rw [hb]
  exact congrArg (· + _) (Finset.sum_congr rfl fun k _ => by rw [hx k, hw k])

/-- An index of the first output array is in point `t`'s block iff each coordinate is in the block's range. -/
theorem mem_blkH (t : Fin cfg0.N) (i : S50000x128.Idx) :
    i ∈ ((cfg0.win 4).blk t).view.set ↔ ∀ a : Fin 2, win0_4.index t a * S2000x128.size a ≤ (i a).val ∧ (i a).val < win0_4.index t a * S2000x128.size a + S2000x128.size a := by
  show i ∈ ((View.whole main_v14_0).slice (win0_4.rect t)).set ↔ _
  rw [View.set_slice_whole, Rect.mem_set_unit]
  exact Iff.rfl

theorem mem_blkS (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v14_1).slice (win0_5.rect t)).set ↔ _
  rw [View.set_slice_whole, Rect.mem_set_unit]
  exact Iff.rfl

/-- Row `r` lies in the block of point `r / 2000`. -/
theorem coverH (i : S50000x128.Idx) : ∃ t : Fin cfg0.N, (cfg0.win 4).flush t = true ∧ i ∈ ((cfg0.win 4).blk t).view.set := by
  have hi0 : (i 0).val < 50000 := (i 0).isLt
  have hi1 : (i 1).val < 128 := (i 1).isLt
  have hN : grid0.N = 25 := N_0
  have ht : (i 0).val / 2000 < cfg0.N := by show (i 0).val / 2000 < grid0.N; omega
  obtain ⟨-, -, -, -, -, -, -, -, e0, e1, -, -⟩ := idx_facts ⟨(i 0).val / 2000, ht⟩
  refine ⟨⟨(i 0).val / 2000, ht⟩, flush0_4 _, ?_⟩
  rw [mem_blkH]
  intro a
  match a with
  | ⟨0, _⟩ =>
    show win0_4.index ⟨(i 0).val / 2000, ht⟩ (0 : Fin 2) * 2000 ≤ (i 0).val ∧ (i 0).val < win0_4.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_4.index ⟨(i 0).val / 2000, ht⟩ (1 : Fin 2) * 128 ≤ (i 1).val ∧ (i 1).val < win0_4.index ⟨(i 0).val / 2000, ht⟩ (1 : Fin 2) * 128 + 128
    rw [e1]; omega

theorem coverS (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  have hN : grid0.N = 25 := N_0
  have ht : (i 0).val / 2000 < cfg0.N := by show (i 0).val / 2000 < grid0.N; omega
  obtain ⟨-, -, -, -, -, -, -, -, -, -, f0, f1⟩ := idx_facts ⟨(i 0).val / 2000, ht⟩
  refine ⟨⟨(i 0).val / 2000, ht⟩, flush0_5 _, ?_⟩
  rw [mem_blkS]
  intro a
  match a with
  | ⟨0, _⟩ =>
    show win0_5.index ⟨(i 0).val / 2000, ht⟩ (0 : Fin 2) * 2000 ≤ (i 0).val ∧ (i 0).val < win0_5.index ⟨(i 0).val / 2000, ht⟩ (0 : Fin 2) * 2000 + 2000
    rw [f0]; show (i 0).val / 2000 * 2000 ≤ (i 0).val ∧ (i 0).val < (i 0).val / 2000 * 2000 + 2000; omega
  | ⟨1, _⟩ =>
    show win0_5.index ⟨(i 0).val / 2000, ht⟩ (1 : Fin 2) * 128 ≤ (i 1).val ∧ (i 1).val < win0_5.index ⟨(i 0).val / 2000, ht⟩ (1 : Fin 2) * 128 + 128
    rw [f1]; omega

/-- The two output arrays after the call. -/
theorem finalH (c : Dev nD) : (dat0 V c).arrAt 4 cfg0.N = matProd (V c main_arg0) (V c main_arg2) :=
  (dat0 V c).arrAt_eq_of_cover 4 _ (fun t _ => flushedH_eq V c t) coverH

theorem finalS (c : Dev nD) : (dat0 V c).arrAt 5 cfg0.N = addRow (matProd (V c main_arg0) (V c main_arg3)) (V c main_v13) :=
  (dat0 V c).arrAt_eq_of_cover 5 _ (fun t _ => flushedS_eq V c t) coverS

end Cert.KernelIdeal.LinearPair

end
-- ==== Proof.CombineLinear.lean ====
/-
  The middle kernel call: on each block of 2000 rows, the first layer's output `Y = max (A·ρ + S) 0` (the summed
  neighbour features `A`, each row scaled by its reciprocal count `ρ`, plus the residual `S`) is formed and at once
  multiplied by the second layer's two 128 × 64 weight matrices: `Y·W` and `Y·L + b`. Each block is the restriction
  of ONE function of the whole arrays, and the 25 row blocks tile the rows.
-/
import proofs.«114476_j46712064311554_2_alg».proof.Proof.Gen.KernelIdeal.Frame
import proofs.«114476_j46712064311554_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.CombineLinear

open Idealize.ShloMosaic Idealize.ShloMosaic.TcCoe Idealize.SL.Sem Idealize.ShloMosaic.ValueIdx
open Cert.KernelIdeal Cert.KernelIdeal.Gen Cert.GraphConv
open Idealize.ShloMosaic.Pipeline (Dat Cfg Window)
open scoped BigOperators

variable (V : (c : Dev nD) → (b : Ref sig .tc) → Buf (Elt Ideal) ((c : Thread nD τ).loc b))

theorem zeros2 : (![0, 0] : Fin 2 → Nat) = fun _ => 0 := funext fun a => by fin_cases a <;> rfl

/-! ## A block product as a sum over the 128 contracted coordinates -/

theorem lhs_0 (i : S2000x64.Idx) (q : dot_S2000x128_S128x64_S2000x64_1_0_0_1_n_n.contr.Idx) :
    (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
theorem lhs_1 (i : S2000x64.Idx) (q : dot_S2000x128_S128x64_S2000x64_1_0_0_1_n_n.contr.Idx) :
    (dot_S2000x128_S128x64_S2000x64_1_0_0_1_n_n.lhsIdx i q 1).val = (q ⟨0, by decide⟩).val :=
  dot_S2000x128_S128x64_S2000x64_1_0_0_1_n_n.lhsIdx_val_of_single rfl i q
theorem rhs_0 (i : S2000x64.Idx) (q : dot_S2000x128_S128x64_S2000x64_1_0_0_1_n_n.contr.Idx) :
    (dot_S2000x128_S128x64_S2000x64_1_0_0_1_n_n.rhsIdx i q 0).val = (q ⟨0, by decide⟩).val :=
  dot_S2000x128_S128x64_S2000x64_1_0_0_1_n_n.rhsIdx_val_of_single rfl i q
theorem rhs_1 (i : S2000x64.Idx) (q : dot_S2000x128_S128x64_S2000x64_1_0_0_1_n_n.contr.Idx) :
    (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- The block product into a zero accumulator, entry (p, q): `∑ k, y p k · w k q`. -/
theorem blockProd_apply (yb : FVec Ideal S2000x128 .bf16) (w : FVec Ideal S128x64 .bf16) (y : S2000x64.Idx) :
    FloatOps.matmul dot_S2000x128_S128x64_S2000x64_1_0_0_1_n_n none yb w (constant S2000x64 .f32 0x00000000#32) y
      = ∑ k : Fin 128, yb (ix2 (⟨(y 0).val, (y 0).isLt⟩ : Fin 2000) k) * w (ix2 k (⟨(y 1).val, (y 1).isLt⟩ : Fin 64)) := by
  rw [Ideal.matmul_constant_zero_apply, ← Equiv.sum_comp (ValueIdx.contrEquiv1 dot_S2000x128_S128x64_S2000x64_1_0_0_1_n_n 128 rfl rfl).symm]
  refine Finset.sum_congr rfl fun k _ => ?_
  have hk := ValueIdx.contrEquiv1_symm_val dot_S2000x128_S128x64_S2000x64_1_0_0_1_n_n 128 rfl rfl k
  have el : dot_S2000x128_S128x64_S2000x64_1_0_0_1_n_n.lhsIdx y ((ValueIdx.contrEquiv1 dot_S2000x128_S128x64_S2000x64_1_0_0_1_n_n 128 rfl rfl).symm k) = ix2 (⟨(y 0).val, (y 0).isLt⟩ : Fin 2000) k := funext fun a => Fin.ext (by
    match a with
    | ⟨0, _⟩ => exact lhs_0 _ _
    | ⟨1, _⟩ => exact (lhs_1 _ _).trans hk)
  have er : dot_S2000x128_S128x64_S2000x64_1_0_0_1_n_n.rhsIdx y ((ValueIdx.contrEquiv1 dot_S2000x128_S128x64_S2000x64_1_0_0_1_n_n 128 rfl rfl).symm k) = ix2 k (⟨(y 1).val, (y 1).isLt⟩ : Fin 64) := funext fun a => Fin.ext (by
    match a with
    | ⟨0, _⟩ => exact (rhs_0 _ _).trans hk
    | ⟨1, _⟩ => exact rhs_1 _ _)
  rw [el, er]

/-- The first layer's output at an entry of a block: the positive part of the scaled sum plus the residual. -/
theorem payY_apply (a : Vec Ideal S2000x128 .f32) (r : Vec Ideal S2000x1 .f32) (s : Vec Ideal S2000x128 .f32) (y : S2000x128.Idx) :
    k1_pay1 a r s y = max (a y * r (ix2 (⟨(y 0).val, (y 0).isLt⟩ : Fin 2000) (0 : Fin 1)) + s y) (Ideal.ofBits .f32 0x00000000#32) := by
  unfold k1_pay1
  simp only [shapeCast_self]
  show max (a y * broadcastTo S2000x128 r broadcasts_S2000x1_S2000x128 y + s y) (Ideal.ofBits .f32 0x00000000#32) = _
  rw [broadcastTo_apply r broadcasts_S2000x1_S2000x128 y (ix2 (⟨(y 0).val, (y 0).isLt⟩ : Fin 2000) (0 : Fin 1)) (fun a => by
    match a with
    | ⟨0, _⟩ => show (y 0).val = if (2000 : Nat) = 1 then 0 else (y 0).val; rw [if_neg (by decide)]
    | ⟨1, _⟩ => show 0 = if (1 : Nat) = 1 then 0 else (y 1).val; rw [if_pos rfl])]

/-- One term of the product `Y·W`: the four arrays read at four indices. -/
def yTerm (A : S50000x128.Idx → EReal) (ρ : S50000x1.Idx → EReal) (S : S50000x128.Idx → EReal) (W : S128x64.Idx → EReal)
    (iA : S50000x128.Idx) (iR : S50000x1.Idx) (iS : S50000x128.Idx) (iW : S128x64.Idx) : EReal :=
  max (A iA * ρ iR + S iS) (Ideal.ofBits .f32 0x00000000#32) * W iW

/-- The bias row read at an index. -/
def biasTerm (b : S1x64.Idx → EReal) (i : S1x64.Idx) : EReal := b i

/-- The product payload at an entry. -/
theorem payH_apply (a : Vec Ideal S2000x128 .f32) (r : Vec Ideal S2000x1 .f32) (s : Vec Ideal S2000x128 .f32) (w : Vec Ideal S128x64 .f32) (y : S2000x64.Idx) :
    k1_pay3 a r s w y = ∑ k : Fin 128, max (a (ix2 (⟨(y 0).val, (y 0).isLt⟩ : Fin 2000) k) * r (ix2 (⟨(y 0).val, (y 0).isLt⟩ : Fin 2000) (0 : Fin 1)) + s (ix2 (⟨(y 0).val, (y 0).isLt⟩ : Fin 2000) k)) (Ideal.ofBits .f32 0x00000000#32)
      * w (ix2 k (⟨(y 1).val, (y 1).isLt⟩ : Fin 64)) := by
  refine (blockProd_apply (k1_pay1 a r s) (truncf .bf16 w bitsLt_bf16_f32) y).trans ?_
  exact Finset.sum_congr rfl fun k _ => congrArg (· * _) (payY_apply a r s _)

/-- The residual payload at an entry: the product plus the bias of the entry's column. -/
theorem payS_apply (a : Vec Ideal S2000x128 .f32) (r : Vec Ideal S2000x1 .f32) (s : Vec Ideal S2000x128 .f32) (w : Vec Ideal S128x64 .f32) (b : Vec Ideal S1x64 .f32) (y : S2000x64.Idx) :
    k1_pay2 a r s w b y = (∑ k : Fin 128, max (a (ix2 (⟨(y 0).val, (y 0).isLt⟩ : Fin 2000) k) * r (ix2 (⟨(y 0).val, (y 0).isLt⟩ : Fin 2000) (0 : Fin 1)) + s (ix2 (⟨(y 0).val, (y 0).isLt⟩ : Fin 2000) k)) (Ideal.ofBits .f32 0x00000000#32)
      * w (ix2 k (⟨(y 1).val, (y 1).isLt⟩ : Fin 64))) + b (ix2 (0 : Fin 1) (⟨(y 1).val, (y 1).isLt⟩ : Fin 64)) := by
  unfold k1_pay2
  simp only [shapeCast_self]
  show FloatOps.matmul dot_S2000x128_S128x64_S2000x64_1_0_0_1_n_n none (k1_pay1 a r s) (truncf .bf16 w bitsLt_bf16_f32) (constant S2000x64 .f32 0x00000000#32) y
      + broadcastTo S2000x64 b broadcasts_S1x64_S2000x64 y = _
  rw [broadcastTo_apply b broadcasts_S1x64_S2000x64 y (ix2 (0 : Fin 1) (⟨(y 1).val, (y 1).isLt⟩ : Fin 64)) (fun a => by
    match a with
    | ⟨0, _⟩ => show 0 = if (1 : Nat) = 1 then 0 else (y 0).val; rw [if_pos rfl]
    | ⟨1, _⟩ => show (y 1).val = if (64 : Nat) = 1 then 0 else (y 1).val; rw [if_neg (by decide)])]
  refine congrArg (· + _) ((blockProd_apply (k1_pay1 a r s) (truncf .bf16 w bitsLt_bf16_f32) y).trans ?_)
  exact Finset.sum_congr rfl fun k _ => congrArg (· * _) (payY_apply a r s _)

/-! ## From blocks to arrays -/

/-- The index maps over the grid: the three row-blocked inputs and both outputs sit at row block `t`; the weights and the bias are whole. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0 :=
  (by decide +kernel : ∀ t : Fin grid1.N, _)

/-- The first layer's output, as one function of the three whole arrays. -/
abbrev hidden (A : S50000x128.Idx → EReal) (ρ : S50000x1.Idx → EReal) (S : S50000x128.Idx → EReal) : S50000x128.Idx → EReal :=
  Cert.GraphConv.posPart (scaleAdd A ρ S)

/-- What point `t` writes back through the first output window is block `t` of `Y·W`. -/
theorem flushedH_eq (c : Dev nD) (t : Fin cfg1.N) :
    (dat1 V c).flushed 6 t = ((cfg1.win 6).blk t).view.read (Elt Ideal)
      (matProd (hidden (V c main_v25) (V c main_v12) (V c main_v14_1)) (V c main_arg5)) := by
  show (cfg1.win 6).cut (grid1.coords t) ((dat1 V c).after 6 t) = _
  rw [after1_6]
  unfold out1_6
  rw [View.canon_unit_zero zeros2]
  simp only [View.ld_unit_zero (S := S2000x128) zeros2, View.ld_unit_zero (S := S2000x1) zeros2, View.ld_unit_zero (S := S128x64) zeros2]
  obtain ⟨a0, a1, b0, b1, c0, c1, d0, d1, e0, e1, f0, f1, g0, g1, h0, h1⟩ := idx_facts t
  funext j
  refine (payH_apply _ _ _ _ j).trans ?_
  have hj0 : (j 0).val < 2000 := (j 0).isLt
  have hj1 : (j 1).val < 64 := (j 1).isLt
  have hA : ∀ k : Fin 128, ((cfg1.win 0).blk t).view.emb (ix2 (⟨(j 0).val, (j 0).isLt⟩ : Fin 2000) k)
      = ix2 (⟨((((cfg1.win 6).blk t).view.emb j) 0).val, ((((cfg1.win 6).blk t).view.emb j) 0).isLt⟩ : Fin 50000) k := fun k => by
    funext a; apply Fin.ext
    match a with
    | ⟨0, _⟩ => show win1_0.index t (0 : Fin 2) * 2000 + 1 * (j 0).val = win1_6.index t (0 : Fin 2) * 2000 + 1 * (j 0).val; omega
    | ⟨1, _⟩ => show win1_0.index t (1 : Fin 2) * 128 + 1 * k.val = k.val; omega
  have hS : ∀ k : Fin 128, ((cfg1.win 2).blk t).view.emb (ix2 (⟨(j 0).val, (j 0).isLt⟩ : Fin 2000) k)
      = ix2 (⟨((((cfg1.win 6).blk t).view.emb j) 0).val, ((((cfg1.win 6).blk t).view.emb j) 0).isLt⟩ : Fin 50000) k := fun k => by
    funext a; apply Fin.ext
    match a with
    | ⟨0, _⟩ => show win1_2.index t (0 : Fin 2) * 2000 + 1 * (j 0).val = win1_6.index t (0 : Fin 2) * 2000 + 1 * (j 0).val; omega
    | ⟨1, _⟩ => show win1_2.index t (1 : Fin 2) * 128 + 1 * k.val = k.val; omega
  have hR : ((cfg1.win 1).blk t).view.emb (ix2 (⟨(j 0).val, (j 0).isLt⟩ : Fin 2000) (0 : Fin 1))
      = ix2 (⟨((((cfg1.win 6).blk t).view.emb j) 0).val, ((((cfg1.win 6).blk t).view.emb j) 0).isLt⟩ : Fin 50000) (0 : Fin 1) := by
    funext a; apply Fin.ext
    match a with
    | ⟨0, _⟩ => show win1_1.index t (0 : Fin 2) * 2000 + 1 * (j 0).val = win1_6.index t (0 : Fin 2) * 2000 + 1 * (j 0).val; omega
    | ⟨1, _⟩ => show win1_1.index t (1 : Fin 2) * 1 + 1 * 0 = 0; omega
  have hW : ∀ k : Fin 128, ((cfg1.win 3).blk t).view.emb (ix2 k (⟨(j 1).val, (j 1).isLt⟩ : Fin 64))
      = ix2 k (⟨((((cfg1.win 6).blk t).view.emb j) 1).val, ((((cfg1.win 6).blk t).view.emb j) 1).isLt⟩ : Fin 64) := fun k => by
    funext a; apply Fin.ext
    match a with
    | ⟨0, _⟩ => show win1_3.index t (0 : Fin 2) * 128 + 1 * k.val = k.val; omega
    | ⟨1, _⟩ => show win1_3.index t (1 : Fin 2) * 64 + 1 * (j 1).val = win1_6.index t (1 : Fin 2) * 64 + 1 * (j 1).val; omega
  show ∑ k : Fin 128, yTerm (V c main_v25) (V c main_v12) (V c main_v14_1) (V c main_arg5)
        (((cfg1.win 0).blk t).view.emb (ix2 (⟨(j 0).val, (j 0).isLt⟩ : Fin 2000) k))
        (((cfg1.win 1).blk t).view.emb (ix2 (⟨(j 0).val, (j 0).isLt⟩ : Fin 2000) (0 : Fin 1)))
        (((cfg1.win 2).blk t).view.emb (ix2 (⟨(j 0).val, (j 0).isLt⟩ : Fin 2000) k))
        (((cfg1.win 3).blk t).view.emb (ix2 k (⟨(j 1).val, (j 1).isLt⟩ : Fin 64)))
    = ∑ k : Fin 128, yTerm (V c main_v25) (V c main_v12) (V c main_v14_1) (V c main_arg5)
        (ix2 (⟨((((cfg1.win 6).blk t).view.emb j) 0).val, ((((cfg1.win 6).blk t).view.emb j) 0).isLt⟩ : Fin 50000) k)
        (ix2 (⟨((((cfg1.win 6).blk t).view.emb j) 0).val, ((((cfg1.win 6).blk t).view.emb j) 0).isLt⟩ : Fin 50000) (0 : Fin 1))
        (ix2 (⟨((((cfg1.win 6).blk t).view.emb j) 0).val, ((((cfg1.win 6).blk t).view.emb j) 0).isLt⟩ : Fin 50000) k)
        (ix2 k (⟨((((cfg1.win 6).blk t).view.emb j) 1).val, ((((cfg1.win 6).blk t).view.emb j) 1).isLt⟩ : Fin 64))
  rw [hR]
  exact Finset.sum_congr rfl fun k _ => by rw [hA k, hS k, hW k]

/-- What point `t` writes back through the second output window is block `t` of `Y·L` plus the bias row. -/
theorem flushedS_eq (c : Dev nD) (t : Fin cfg1.N) :
    (dat1 V c).flushed 7 t = ((cfg1.win 7).blk t).view.read (Elt Ideal)
      (addRow (matProd (hidden (V c main_v25) (V c main_v12) (V c main_v14_1)) (V c main_arg6)) (V c main_v26)) := by
  show (cfg1.win 7).cut (grid1.coords t) ((dat1 V c).after 7 t) = _
  rw [after1_7]
  unfold out1_7
  rw [View.canon_unit_zero zeros2]
  simp only [View.ld_unit_zero (S := S2000x128) zeros2, View.ld_unit_zero (S := S2000x1) zeros2, View.ld_unit_zero (S := S128x64) zeros2, View.ld_unit_zero (S := S1x64) zeros2]
  obtain ⟨a0, a1, b0, b1, c0, c1, d0, d1, e0, e1, f0, f1, g0, g1, h0, h1⟩ := idx_facts t
  funext j
  refine (payS_apply _ _ _ _ _ j).trans ?_
  have hj0 : (j 0).val < 2000 := (j 0).isLt
  have hj1 : (j 1).val < 64 := (j 1).isLt
  have hA : ∀ k : Fin 128, ((cfg1.win 0).blk t).view.emb (ix2 (⟨(j 0).val, (j 0).isLt⟩ : Fin 2000) k)
      = ix2 (⟨((((cfg1.win 7).blk t).view.emb j) 0).val, ((((cfg1.win 7).blk t).view.emb j) 0).isLt⟩ : Fin 50000) k := fun k => by
    funext a; apply Fin.ext
    match a with
    | ⟨0, _⟩ => show win1_0.index t (0 : Fin 2) * 2000 + 1 * (j 0).val = win1_7.index t (0 : Fin 2) * 2000 + 1 * (j 0).val; omega
    | ⟨1, _⟩ => show win1_0.index t (1 : Fin 2) * 128 + 1 * k.val = k.val; omega
  have hS : ∀ k : Fin 128, ((cfg1.win 2).blk t).view.emb (ix2 (⟨(j 0).val, (j 0).isLt⟩ : Fin 2000) k)
      = ix2 (⟨((((cfg1.win 7).blk t).view.emb j) 0).val, ((((cfg1.win 7).blk t).view.emb j) 0).isLt⟩ : Fin 50000) k := fun k => by
    funext a; apply Fin.ext
    match a with
    | ⟨0, _⟩ => show win1_2.index t (0 : Fin 2) * 2000 + 1 * (j 0).val = win1_7.index t (0 : Fin 2) * 2000 + 1 * (j 0).val; omega
    | ⟨1, _⟩ => show win1_2.index t (1 : Fin 2) * 128 + 1 * k.val = k.val; omega
  have hR : ((cfg1.win 1).blk t).view.emb (ix2 (⟨(j 0).val, (j 0).isLt⟩ : Fin 2000) (0 : Fin 1))
      = ix2 (⟨((((cfg1.win 7).blk t).view.emb j) 0).val, ((((cfg1.win 7).blk t).view.emb j) 0).isLt⟩ : Fin 50000) (0 : Fin 1) := by
    funext a; apply Fin.ext
    match a with
    | ⟨0, _⟩ => show win1_1.index t (0 : Fin 2) * 2000 + 1 * (j 0).val = win1_7.index t (0 : Fin 2) * 2000 + 1 * (j 0).val; omega
    | ⟨1, _⟩ => show win1_1.index t (1 : Fin 2) * 1 + 1 * 0 = 0; omega
  have hW : ∀ k : Fin 128, ((cfg1.win 4).blk t).view.emb (ix2 k (⟨(j 1).val, (j 1).isLt⟩ : Fin 64))
      = ix2 k (⟨((((cfg1.win 7).blk t).view.emb j) 1).val, ((((cfg1.win 7).blk t).view.emb j) 1).isLt⟩ : Fin 64) := fun k => by
    funext a; apply Fin.ext
    match a with
    | ⟨0, _⟩ => show win1_4.index t (0 : Fin 2) * 128 + 1 * k.val = k.val; omega
    | ⟨1, _⟩ => show win1_4.index t (1 : Fin 2) * 64 + 1 * (j 1).val = win1_7.index t (1 : Fin 2) * 64 + 1 * (j 1).val; omega
  have hb : ((cfg1.win 5).blk t).view.emb (ix2 (0 : Fin 1) (⟨(j 1).val, (j 1).isLt⟩ : Fin 64))
      = ix2 (0 : Fin 1) (⟨((((cfg1.win 7).blk t).view.emb j) 1).val, ((((cfg1.win 7).blk t).view.emb j) 1).isLt⟩ : Fin 64) := by
    funext a; apply Fin.ext
    match a with
    | ⟨0, _⟩ => show win1_5.index t (0 : Fin 2) * 1 + 1 * 0 = 0; omega
    | ⟨1, _⟩ => show win1_5.index t (1 : Fin 2) * 64 + 1 * (j 1).val = win1_7.index t (1 : Fin 2) * 64 + 1 * (j 1).val; omega
  show (∑ k : Fin 128, yTerm (V c main_v25) (V c main_v12) (V c main_v14_1) (V c main_arg6)
        (((cfg1.win 0).blk t).view.emb (ix2 (⟨(j 0).val, (j 0).isLt⟩ : Fin 2000) k))
        (((cfg1.win 1).blk t).view.emb (ix2 (⟨(j 0).val, (j 0).isLt⟩ : Fin 2000) (0 : Fin 1)))
        (((cfg1.win 2).blk t).view.emb (ix2 (⟨(j 0).val, (j 0).isLt⟩ : Fin 2000) k))
        (((cfg1.win 4).blk t).view.emb (ix2 k (⟨(j 1).val, (j 1).isLt⟩ : Fin 64))))
      + biasTerm (V c main_v26) (((cfg1.win 5).blk t).view.emb (ix2 (0 : Fin 1) (⟨(j 1).val, (j 1).isLt⟩ : Fin 64)))
    = (∑ k : Fin 128, yTerm (V c main_v25) (V c main_v12) (V c main_v14_1) (V c main_arg6)
        (ix2 (⟨((((cfg1.win 7).blk t).view.emb j) 0).val, ((((cfg1.win 7).blk t).view.emb j) 0).isLt⟩ : Fin 50000) k)
        (ix2 (⟨((((cfg1.win 7).blk t).view.emb j) 0).val, ((((cfg1.win 7).blk t).view.emb j) 0).isLt⟩ : Fin 50000) (0 : Fin 1))
        (ix2 (⟨((((cfg1.win 7).blk t).view.emb j) 0).val, ((((cfg1.win 7).blk t).view.emb j) 0).isLt⟩ : Fin 50000) k)
        (ix2 k (⟨((((cfg1.win 7).blk t).view.emb j) 1).val, ((((cfg1.win 7).blk t).view.emb j) 1).isLt⟩ : Fin 64)))
      + biasTerm (V c main_v26) (ix2 (0 : Fin 1) (⟨((((cfg1.win 7).blk t).view.emb j) 1).val, ((((cfg1.win 7).blk t).view.emb j) 1).isLt⟩ : Fin 64))
  rw [hR, hb]
  exact congrArg (· + _) (Finset.sum_congr rfl fun k _ => by rw [hA k, hS k, hW k])

/-- An index of an output array is in point `t`'s block iff each coordinate is in the block's range. -/
theorem mem_blkH (t : Fin cfg1.N) (i : S50000x64.Idx) :
    i ∈ ((cfg1.win 6).blk t).view.set ↔ ∀ a : Fin 2, win1_6.index t a * S2000x64.size a ≤ (i a).val ∧ (i a).val < win1_6.index t a * S2000x64.size a + S2000x64.size a := by
  show i ∈ ((View.whole main_v27_0).slice (win1_6.rect t)).set ↔ _
  rw [View.set_slice_whole, Rect.mem_set_unit]
  exact Iff.rfl

theorem mem_blkS (t : Fin cfg1.N) (i : S50000x64.Idx) :
    i ∈ ((cfg1.win 7).blk t).view.set ↔ ∀ a : Fin 2, win1_7.index t a * S2000x64.size a ≤ (i a).val ∧ (i a).val < win1_7.index t a * S2000x64.size a + S2000x64.size a := by
  show i ∈ ((View.whole main_v27_1).slice (win1_7.rect t)).set ↔ _
  rw [View.set_slice_whole, Rect.mem_set_unit]
  exact Iff.rfl

/-- Row `r` lies in the block of point `r / 2000`. -/
theorem coverH (i : S50000x64.Idx) : ∃ t : Fin cfg1.N, (cfg1.win 6).flush t = true ∧ i ∈ ((cfg1.win 6).blk t).view.set := by
  have hi0 : (i 0).val < 50000 := (i 0).isLt
  have hi1 : (i 1).val < 64 := (i 1).isLt
  have hN : grid1.N = 25 := N_1
  have ht : (i 0).val / 2000 < cfg1.N := by show (i 0).val / 2000 < grid1.N; omega
  obtain ⟨-, -, -, -, -, -, -, -, -, -, -, -, g0, g1, -, -⟩ := idx_facts ⟨(i 0).val / 2000, ht⟩
  refine ⟨⟨(i 0).val / 2000, ht⟩, flush1_6 _, ?_⟩
  rw [mem_blkH]
  intro a
  match a with
  | ⟨0, _⟩ =>
    show win1_6.index ⟨(i 0).val / 2000, ht⟩ (0 : Fin 2) * 2000 ≤ (i 0).val ∧ (i 0).val < win1_6.index ⟨(i 0).val / 2000, ht⟩ (0 : Fin 2) * 2000 + 2000
    rw [g0]; show (i 0).val / 2000 * 2000 ≤ (i 0).val ∧ (i 0).val < (i 0).val / 2000 * 2000 + 2000; omega
  | ⟨1, _⟩ =>
    show win1_6.index ⟨(i 0).val / 2000, ht⟩ (1 : Fin 2) * 64 ≤ (i 1).val ∧ (i 1).val < win1_6.index ⟨(i 0).val / 2000, ht⟩ (1 : Fin 2) * 64 + 64
    rw [g1]; omega

theorem coverS (i : S50000x64.Idx) : ∃ t : Fin cfg1.N, (cfg1.win 7).flush t = true ∧ i ∈ ((cfg1.win 7).blk t).view.set := by
  have hi0 : (i 0).val < 50000 := (i 0).isLt
  have hi1 : (i 1).val < 64 := (i 1).isLt
  have hN : grid1.N = 25 := N_1
  have ht : (i 0).val / 2000 < cfg1.N := by show (i 0).val / 2000 < grid1.N; omega
  obtain ⟨-, -, -, -, -, -, -, -, -, -, -, -, -, -, h0, h1⟩ := idx_facts ⟨(i 0).val / 2000, ht⟩
  refine ⟨⟨(i 0).val / 2000, ht⟩, flush1_7 _, ?_⟩
  rw [mem_blkS]
  intro a
  match a with
  | ⟨0, _⟩ =>
    show win1_7.index ⟨(i 0).val / 2000, ht⟩ (0 : Fin 2) * 2000 ≤ (i 0).val ∧ (i 0).val < win1_7.index ⟨(i 0).val / 2000, ht⟩ (0 : Fin 2) * 2000 + 2000
    rw [h0]; show (i 0).val / 2000 * 2000 ≤ (i 0).val ∧ (i 0).val < (i 0).val / 2000 * 2000 + 2000; omega
  | ⟨1, _⟩ =>
    show win1_7.index ⟨(i 0).val / 2000, ht⟩ (1 : Fin 2) * 64 ≤ (i 1).val ∧ (i 1).val < win1_7.index ⟨(i 0).val / 2000, ht⟩ (1 : Fin 2) * 64 + 64
    rw [h1]; omega

/-- The two output arrays after the call. -/
theorem finalH (c : Dev nD) : (dat1 V c).arrAt 6 cfg1.N = matProd (hidden (V c main_v25) (V c main_v12) (V c main_v14_1)) (V c main_arg5) :=
  (dat1 V c).arrAt_eq_of_cover 6 _ (fun t _ => flushedH_eq V c t) coverH

theorem finalS (c : Dev nD) : (dat1 V c).arrAt 7 cfg1.N = addRow (matProd (hidden (V c main_v25) (V c main_v12) (V c main_v14_1)) (V c main_arg6)) (V c main_v26) :=
  (dat1 V c).arrAt_eq_of_cover 7 _ (fun t _ => flushedS_eq V c t) coverS

end Cert.KernelIdeal.CombineLinear

end
-- ==== Proof.MeanCombine.lean ====
/-
  The last kernel call: on each block of 2000 rows the summed neighbour features, each row scaled by its own
  reciprocal count (a column of width one, broadcast along the row), plus the residual block. Every block is the
  restriction of ONE function of the three whole arrays — `scaleAdd` — and the 25 row blocks tile the 50000 rows,
  so the output array after the call is `scaleAdd` of the arrays the call was entered with.
-/
import proofs.«114476_j46712064311554_2_alg».proof.Proof.Gen.KernelIdeal.Frame
import proofs.«114476_j46712064311554_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.MeanCombine

open Idealize.ShloMosaic Idealize.ShloMosaic.TcCoe Idealize.SL.Sem Idealize.ShloMosaic.ValueIdx
open Cert.KernelIdeal Cert.KernelIdeal.Gen Cert.GraphConv
open Idealize.ShloMosaic.Pipeline (Dat Cfg Window)

variable (V : (c : Dev nD) → (b : Ref sig .tc) → Buf (Elt Ideal) ((c : Thread nD τ).loc b))

/-- One entry: the three arrays read at three (possibly different) indices. -/
def rowTerm (A : S50000x64.Idx → EReal) (ρ : S50000x1.Idx → EReal) (S : S50000x64.Idx → EReal)
    (i0 : S50000x64.Idx) (i1 : S50000x1.Idx) (i2 : S50000x64.Idx) : EReal := A i0 * ρ i1 + S i2

theorem zeros2 : (![0, 0] : Fin 2 → Nat) = fun _ => 0 := funext fun a => by fin_cases a <;> rfl

/-- The body's arithmetic at one entry of a block: the product with the row's own scale, plus the residual. -/
theorem pay_apply (a : Vec Ideal S2000x64 .f32) (r : Vec Ideal S2000x1 .f32) (s : Vec Ideal S2000x64 .f32) (y : S2000x64.Idx) :
    k2_pay1 a r s y = a y * r (ix2 (⟨(y 0).val, (y 0).isLt⟩ : Fin 2000) (0 : Fin 1)) + s y := by
  unfold k2_pay1
  simp only [shapeCast_self]
  show a y * broadcastTo S2000x64 r broadcasts_S2000x1_S2000x64 y + s y = _
  rw [broadcastTo_apply r broadcasts_S2000x1_S2000x64 y (ix2 (⟨(y 0).val, (y 0).isLt⟩ : Fin 2000) (0 : Fin 1)) (fun a => by
    match a with
    | ⟨0, _⟩ => show (y 0).val = if (2000 : Nat) = 1 then 0 else (y 0).val; rw [if_neg (by decide)]
    | ⟨1, _⟩ => show 0 = if (1 : Nat) = 1 then 0 else (y 1).val; rw [if_pos rfl])]

/-- The index maps over the grid: every row-blocked window sits at the output's row block, in column block 0. -/
theorem idx_facts : ∀ t : Fin cfg2.N, win2_0.index t (0 : Fin 2) = win2_3.index t (0 : Fin 2) ∧ win2_0.index t (1 : Fin 2) = 0
    ∧ win2_1.index t (0 : Fin 2) = win2_3.index t (0 : Fin 2) ∧ win2_1.index t (1 : Fin 2) = 0
    ∧ win2_2.index t (0 : Fin 2) = win2_3.index t (0 : Fin 2) ∧ win2_2.index t (1 : Fin 2) = 0
    ∧ win2_3.index t (1 : Fin 2) = 0 ∧ win2_3.index t (0 : Fin 2) = t.val :=
  (by decide +kernel : ∀ t : Fin grid2.N, _)

/-- What point `t` writes back is block `t` of `scaleAdd` of the arrays the call finds. -/
theorem flushed_eq (c : Dev nD) (t : Fin cfg2.N) :
    (dat2 V c).flushed 3 t = ((cfg2.win 3).blk t).view.read (Elt Ideal) (scaleAdd (V c main_v38) (V c main_v12) (V c main_v27_1)) := by
  show (cfg2.win 3).cut (grid2.coords t) ((dat2 V c).after 3 t) = _
  rw [after2_3]
  unfold out2_3
  rw [View.canon_unit_zero zeros2]
  simp only [View.ld_unit_zero (S := S2000x64) zeros2, View.ld_unit_zero (S := S2000x1) zeros2]
  obtain ⟨e0, e1, e2, e3, e4, e5, e6, e7⟩ := idx_facts t
  funext j
  refine (pay_apply _ _ _ j).trans ?_
  have hj0 : (j 0).val < 2000 := (j 0).isLt
  have hj1 : (j 1).val < 64 := (j 1).isLt
  have h0 : ((cfg2.win 0).blk t).view.emb j = ((cfg2.win 3).blk t).view.emb j := by
    funext a; apply Fin.ext
    match a with
    | ⟨0, _⟩ => show win2_0.index t (0 : Fin 2) * 2000 + 1 * (j 0).val = win2_3.index t (0 : Fin 2) * 2000 + 1 * (j 0).val; omega
    | ⟨1, _⟩ => show win2_0.index t (1 : Fin 2) * 64 + 1 * (j 1).val = win2_3.index t (1 : Fin 2) * 64 + 1 * (j 1).val; omega
  have h2 : ((cfg2.win 2).blk t).view.emb j = ((cfg2.win 3).blk t).view.emb j := by
    funext a; apply Fin.ext
    match a with
    | ⟨0, _⟩ => show win2_2.index t (0 : Fin 2) * 2000 + 1 * (j 0).val = win2_3.index t (0 : Fin 2) * 2000 + 1 * (j 0).val; omega
    | ⟨1, _⟩ => show win2_2.index t (1 : Fin 2) * 64 + 1 * (j 1).val = win2_3.index t (1 : Fin 2) * 64 + 1 * (j 1).val; omega
  have h1 : ((cfg2.win 1).blk t).view.emb (ix2 (⟨(j 0).val, (j 0).isLt⟩ : Fin 2000) (0 : Fin 1))
      = ix2 (⟨((((cfg2.win 3).blk t).view.emb j) 0).val, ((((cfg2.win 3).blk t).view.emb j) 0).isLt⟩ : Fin 50000) (0 : Fin 1) := by
    funext a; apply Fin.ext
    match a with
    | ⟨0, _⟩ => show win2_1.index t (0 : Fin 2) * 2000 + 1 * (j 0).val = win2_3.index t (0 : Fin 2) * 2000 + 1 * (j 0).val; omega
    | ⟨1, _⟩ => show win2_1.index t (1 : Fin 2) * 1 + 1 * 0 = 0; omega
  show rowTerm (V c main_v38) (V c main_v12) (V c main_v27_1) (((cfg2.win 0).blk t).view.emb j)
      (((cfg2.win 1).blk t).view.emb (ix2 (⟨(j 0).val, (j 0).isLt⟩ : Fin 2000) (0 : Fin 1))) (((cfg2.win 2).blk t).view.emb j)
    = rowTerm (V c main_v38) (V c main_v12) (V c main_v27_1) (((cfg2.win 3).blk t).view.emb j)
      (ix2 (⟨((((cfg2.win 3).blk t).view.emb j) 0).val, ((((cfg2.win 3).blk t).view.emb j) 0).isLt⟩ : Fin 50000) (0 : Fin 1)) (((cfg2.win 3).blk t).view.emb j)
  rw [h0, h1, h2]

/-- An index of the array is in point `t`'s block iff each coordinate is in the block's range on its axis. -/
theorem mem_blk (t : Fin cfg2.N) (i : S50000x64.Idx) :
    i ∈ ((cfg2.win 3).blk t).view.set ↔ ∀ a : Fin 2, win2_3.index t a * S2000x64.size a ≤ (i a).val ∧ (i a).val < win2_3.index t a * S2000x64.size a + S2000x64.size a := by
  show i ∈ ((View.whole main_v39).slice (win2_3.rect t)).set ↔ _
  rw [View.set_slice_whole, Rect.mem_set_unit]
  exact Iff.rfl

/-- Row `r` lies in the block of point `r / 2000`. -/
theorem cover (i : S50000x64.Idx) : ∃ t : Fin cfg2.N, (cfg2.win 3).flush t = true ∧ i ∈ ((cfg2.win 3).blk t).view.set := by
  have hi0 : (i 0).val < 50000 := (i 0).isLt
  have hi1 : (i 1).val < 64 := (i 1).isLt
  have hN : grid2.N = 25 := N_2
  have ht : (i 0).val / 2000 < cfg2.N := by show (i 0).val / 2000 < grid2.N; omega
  obtain ⟨-, -, -, -, -, -, e6, e7⟩ := idx_facts ⟨(i 0).val / 2000, ht⟩
  refine ⟨⟨(i 0).val / 2000, ht⟩, flush2_3 _, ?_⟩
  rw [mem_blk]
  intro a
  match a with
  | ⟨0, _⟩ =>
    show win2_3.index ⟨(i 0).val / 2000, ht⟩ (0 : Fin 2) * 2000 ≤ (i 0).val ∧ (i 0).val < win2_3.index ⟨(i 0).val / 2000, ht⟩ (0 : Fin 2) * 2000 + 2000
    rw [e7]; show (i 0).val / 2000 * 2000 ≤ (i 0).val ∧ (i 0).val < (i 0).val / 2000 * 2000 + 2000; omega
  | ⟨1, _⟩ =>
    show win2_3.index ⟨(i 0).val / 2000, ht⟩ (1 : Fin 2) * 64 ≤ (i 1).val ∧ (i 1).val < win2_3.index ⟨(i 0).val / 2000, ht⟩ (1 : Fin 2) * 64 + 64
    rw [e6]; omega

/-- The output array after the call. -/
theorem final (c : Dev nD) : (dat2 V c).arrAt 3 cfg2.N = scaleAdd (V c main_v38) (V c main_v12) (V c main_v27_1) :=
  (dat2 V c).arrAt_eq_of_cover 3 _ (fun t _ => flushed_eq V c t) cover

end Cert.KernelIdeal.MeanCombine

end
-- ==== Proof.HostChain.lean ====
/-
  The kernel program between its three calls: the host operations that slice the edge list into sources and
  destinations, count the in-degrees and invert them, gather the projected features along the edges and sum them
  into their destination rows. The buffer contents at each segment boundary are read back, one boundary at a time,
  to the launch arrays; the result buffer ends at the two-layer network of the launch arrays.
-/
import proofs.«114476_j46712064311554_2_alg».proof.Proof.Gen.KernelIdeal.Frame
import proofs.«114476_j46712064311554_2_alg».proof.Proof.Spec
import proofs.«114476_j46712064311554_2_alg».proof.Proof.LinearPair
import proofs.«114476_j46712064311554_2_alg».proof.Proof.CombineLinear
import proofs.«114476_j46712064311554_2_alg».proof.Proof.MeanCombine
import Idealize.ShloMosaic.Lib.StableHlo.Run
import Idealize.ShloMosaic.Lib.Pipeline.Value
import Idealize.ShloMosaic.Lib.ValueIdx

set_option maxRecDepth 16384

noncomputable section

namespace Cert.KernelIdeal.Chain

open Idealize.ShloMosaic Idealize.ShloMosaic.TcCoe Idealize.SL.Sem Idealize.ShloMosaic.ValueIdx Idealize.ShloMosaic.StableHlo
open Cert.KernelIdeal Cert.KernelIdeal.Gen Cert.GraphConv
open Idealize.ShloMosaic.Pipeline (Dat Cfg Window)

/-! ## The host operations, as functions of the edge list -/

/-- Row 0 of the edge list: the source node of each edge. -/
def srcRaw (E : (⟨S2x800000, .i32⟩ : BufTy).Contents (Elt Ideal)) : (⟨S800000, .i32⟩ : BufTy).Contents (Elt Ideal) :=
  shapeCast S800000 (extractStridedSlice S1x800000 ![0, 0] E slices_S2x800000_S1x800000_0_0) shapeCasts_S1x800000_S800000

/-- Row 1 of the edge list: the destination node of each edge. -/
def dstRaw (E : (⟨S2x800000, .i32⟩ : BufTy).Contents (Elt Ideal)) : (⟨S800000, .i32⟩ : BufTy).Contents (Elt Ideal) :=
  shapeCast S800000 (extractStridedSlice S1x800000 ![1, 0] E slices_S2x800000_S1x800000_1_0) shapeCasts_S1x800000_S800000

/-- The destinations as a column of scatter indices. -/
def dstIdx (E : (⟨S2x800000, .i32⟩ : BufTy).Contents (Elt Ideal)) : (⟨S800000x1, .i32⟩ : BufTy).Contents (Elt Ideal) :=
  broadcastInDim S800000x1 ![0] bcast_S800000_S800000x1_0 (dstRaw E)

/-- The sources, a negative one wrapped by the number of nodes, as a column of gather indices. -/
def srcIdx (E : (⟨S2x800000, .i32⟩ : BufTy).Contents (Elt Ideal)) : (⟨S800000x1, .i32⟩ : BufTy).Contents (Elt Ideal) :=
  broadcastInDim S800000x1 ![0] bcast_S800000_S800000x1_0
    (select (cmpi .slt (srcRaw E) (broadcastInDim S800000 ![] bcast_S_S800000 (constantI S_ 32 0#32)))
      (addi (srcRaw E) (broadcastInDim S800000 ![] bcast_S_S800000 (constantI S_ 32 50000#32))) (srcRaw E))

/-- The in-degree of every node: ones summed into the destination rows. -/
def counts (E : (⟨S2x800000, .i32⟩ : BufTy).Contents (Elt Ideal)) : (⟨S50000, .f32⟩ : BufTy).Contents (Elt Ideal) :=
  Host.scatterAdd scatter_S50000_S800000x1_S800000_n_0_0_1 (broadcastInDim S50000 ![] bcast_S_S50000 (constant (F := Ideal) S_ .f32 0x00000000#32))
    (dstIdx E) (broadcastInDim S800000 ![] bcast_S_S800000 (constant (F := Ideal) S_ .f32 0x3F800000#32))

/-- One over the in-degree clamped below by one, as a column. -/
def invCol (E : (⟨S2x800000, .i32⟩ : BufTy).Contents (Elt Ideal)) : (⟨S50000x1, .f32⟩ : BufTy).Contents (Elt Ideal) :=
  shapeCast S50000x1 (Host.divf (F := Ideal) (broadcastInDim S50000 ![] bcast_S_S50000 (constant (F := Ideal) S_ .f32 0x3F800000#32))
    (maximumf (counts E) (broadcastInDim S50000 ![] bcast_S_S50000 (constant (F := Ideal) S_ .f32 0x3F800000#32)))) shapeCasts_S50000_S50000x1

/-- The first layer's aggregation: rows gathered along the edges, summed into the destination rows. -/
def agg1 (E : (⟨S2x800000, .i32⟩ : BufTy).Contents (Elt Ideal)) (H : (⟨S50000x128, .bf16⟩ : BufTy).Contents (Elt Ideal)) :
    (⟨S50000x128, .f32⟩ : BufTy).Contents (Elt Ideal) :=
  Host.scatterAdd scatter_S50000x128_S800000x1_S800000x128_1_0_0_1 (broadcastInDim S50000x128 ![] bcast_S_S50000x128 (constant (F := Ideal) S_ .f32 0x00000000#32))
    (dstIdx E) (extf .f32 (Host.gather gather_S50000x128_S800000x1_S800000x128_1_0_n_n_0_1_1128 H (srcIdx E)) bitsLt_bf16_f32)

/-- The second layer's aggregation. -/
def agg2 (E : (⟨S2x800000, .i32⟩ : BufTy).Contents (Elt Ideal)) (H : (⟨S50000x64, .bf16⟩ : BufTy).Contents (Elt Ideal)) :
    (⟨S50000x64, .f32⟩ : BufTy).Contents (Elt Ideal) :=
  Host.scatterAdd scatter_S50000x64_S800000x1_S800000x64_1_0_0_1 (broadcastInDim S50000x64 ![] bcast_S_S50000x64 (constant (F := Ideal) S_ .f32 0x00000000#32))
    (dstIdx E) (extf .f32 (Host.gather gather_S50000x64_S800000x1_S800000x64_1_0_n_n_0_1_164 H (srcIdx E)) bitsLt_bf16_f32)

variable (m : (ℓ : Loc nD τ sig) → Buf (Elt Ideal) ℓ) (ρ : Dev nD → PrngReg) (c : Dev nD)

/-! ## Boundary 1: after the first stretch of host operations -/

theorem w1_arg0 : W1 m ρ c (Proc.devRef .tc main_arg0) = m ((c : Thread nD τ).loc main_arg0) := by
  dsimp only [W1, hostOps0]; after_results
theorem w1_arg2 : W1 m ρ c (Proc.devRef .tc main_arg2) = m ((c : Thread nD τ).loc main_arg2) := by
  dsimp only [W1, hostOps0]; after_results
theorem w1_arg3 : W1 m ρ c (Proc.devRef .tc main_arg3) = m ((c : Thread nD τ).loc main_arg3) := by
  dsimp only [W1, hostOps0]; after_results
theorem w1_arg5 : W1 m ρ c (Proc.devRef .tc main_arg5) = m ((c : Thread nD τ).loc main_arg5) := by
  dsimp only [W1, hostOps0]; after_results
theorem w1_arg6 : W1 m ρ c (Proc.devRef .tc main_arg6) = m ((c : Thread nD τ).loc main_arg6) := by
  dsimp only [W1, hostOps0]; after_results
theorem w1_arg7 : W1 m ρ c (Proc.devRef .tc main_arg7) = m ((c : Thread nD τ).loc main_arg7) := by
  dsimp only [W1, hostOps0]; after_results
theorem w1_v13 : W1 m ρ c (Proc.devRef .tc main_v13) = shapeCast S1x128 (m ((c : Thread nD τ).loc main_arg4)) shapeCasts_S128_S1x128 := by
  dsimp only [W1, hostOps0]; after_results; rfl
theorem w1_v1 : W1 m ρ c (Proc.devRef .tc main_v1) = srcRaw (m ((c : Thread nD τ).loc main_arg1)) := by
  dsimp only [W1, hostOps0]; after_results; rfl
theorem w1_v3 : W1 m ρ c (Proc.devRef .tc main_v3) = dstRaw (m ((c : Thread nD τ).loc main_arg1)) := by
  dsimp only [W1, hostOps0]; after_results; rfl
theorem w1_v12 : W1 m ρ c (Proc.devRef .tc main_v12) = invCol (m ((c : Thread nD τ).loc main_arg1)) := by
  dsimp only [W1, hostOps0]; after_results; rfl

/-! ## Boundary 2: after the first call -/

theorem w2_v14_0 : W2 m ρ c (Proc.devRef .tc main_v14_0)
    = matProd (m ((c : Thread nD τ).loc main_arg0)) (m ((c : Thread nD τ).loc main_arg2)) := by
  refine (W2_arr m ρ c 4).trans ((LinearPair.finalH (V1 m ρ) c).trans ?_)
  show matProd (W1 m ρ c (Proc.devRef .tc main_arg0)) (W1 m ρ c (Proc.devRef .tc main_arg2)) = _
  rw [w1_arg0, w1_arg2]

theorem w2_v14_1 : W2 m ρ c (Proc.devRef .tc main_v14_1)
    = addRow (matProd (m ((c : Thread nD τ).loc main_arg0)) (m ((c : Thread nD τ).loc main_arg3)))
        (shapeCast S1x128 (m ((c : Thread nD τ).loc main_arg4)) shapeCasts_S128_S1x128) := by
  refine (W2_arr m ρ c 5).trans ((LinearPair.finalS (V1 m ρ) c).trans ?_)
  show addRow (matProd (W1 m ρ c (Proc.devRef .tc main_arg0)) (W1 m ρ c (Proc.devRef .tc main_arg3))) (W1 m ρ c (Proc.devRef .tc main_v13)) = _
  rw [w1_arg0, w1_arg3, w1_v13]

theorem w2_v1 : W2 m ρ c (Proc.devRef .tc main_v1) = srcRaw (m ((c : Thread nD τ).loc main_arg1)) :=
  (W2_of_ne m ρ c main_v1 (by decide)).trans (w1_v1 m ρ c)
theorem w2_v3 : W2 m ρ c (Proc.devRef .tc main_v3) = dstRaw (m ((c : Thread nD τ).loc main_arg1)) :=
  (W2_of_ne m ρ c main_v3 (by decide)).trans (w1_v3 m ρ c)
theorem w2_v12 : W2 m ρ c (Proc.devRef .tc main_v12) = invCol (m ((c : Thread nD τ).loc main_arg1)) :=
  (W2_of_ne m ρ c main_v12 (by decide)).trans (w1_v12 m ρ c)
theorem w2_arg5 : W2 m ρ c (Proc.devRef .tc main_arg5) = m ((c : Thread nD τ).loc main_arg5) :=
  (W2_of_ne m ρ c main_arg5 (by decide)).trans (w1_arg5 m ρ c)
theorem w2_arg6 : W2 m ρ c (Proc.devRef .tc main_arg6) = m ((c : Thread nD τ).loc main_arg6) :=
  (W2_of_ne m ρ c main_arg6 (by decide)).trans (w1_arg6 m ρ c)
theorem w2_arg7 : W2 m ρ c (Proc.devRef .tc main_arg7) = m ((c : Thread nD τ).loc main_arg7) :=
  (W2_of_ne m ρ c main_arg7 (by decide)).trans (w1_arg7 m ρ c)

/-! ## Boundary 3: after the second stretch of host operations -/

theorem w3_v25 : W3 m ρ c (Proc.devRef .tc main_v25)
    = agg1 (m ((c : Thread nD τ).loc main_arg1)) (matProd (m ((c : Thread nD τ).loc main_arg0)) (m ((c : Thread nD τ).loc main_arg2))) := by
  dsimp only [W3, hostOps1]; after_results
  rw [w2_v14_0, w2_v1, w2_v3]; rfl
theorem w3_v12 : W3 m ρ c (Proc.devRef .tc main_v12) = invCol (m ((c : Thread nD τ).loc main_arg1)) := by
  dsimp only [W3, hostOps1]; after_results; exact w2_v12 m ρ c
theorem w3_v14_1 : W3 m ρ c (Proc.devRef .tc main_v14_1)
    = addRow (matProd (m ((c : Thread nD τ).loc main_arg0)) (m ((c : Thread nD τ).loc main_arg3)))
        (shapeCast S1x128 (m ((c : Thread nD τ).loc main_arg4)) shapeCasts_S128_S1x128) := by
  dsimp only [W3, hostOps1]; after_results; exact w2_v14_1 m ρ c
theorem w3_arg5 : W3 m ρ c (Proc.devRef .tc main_arg5) = m ((c : Thread nD τ).loc main_arg5) := by
  dsimp only [W3, hostOps1]; after_results; exact w2_arg5 m ρ c
theorem w3_arg6 : W3 m ρ c (Proc.devRef .tc main_arg6) = m ((c : Thread nD τ).loc main_arg6) := by
  dsimp only [W3, hostOps1]; after_results; exact w2_arg6 m ρ c
theorem w3_v26 : W3 m ρ c (Proc.devRef .tc main_v26) = shapeCast S1x64 (m ((c : Thread nD τ).loc main_arg7)) shapeCasts_S64_S1x64 := by
  dsimp only [W3, hostOps1]; after_results
  rw [w2_arg7]; rfl
theorem w3_v1 : W3 m ρ c (Proc.devRef .tc main_v1) = srcRaw (m ((c : Thread nD τ).loc main_arg1)) := by
  dsimp only [W3, hostOps1]; after_results; exact w2_v1 m ρ c
theorem w3_v3 : W3 m ρ c (Proc.devRef .tc main_v3) = dstRaw (m ((c : Thread nD τ).loc main_arg1)) := by
  dsimp only [W3, hostOps1]; after_results; exact w2_v3 m ρ c

/-! ## Boundary 4: after the second call -/

/-- The first layer's output, of the launch arrays. -/
def hiddenOf : S50000x128.Idx → EReal :=
  Cert.GraphConv.posPart (scaleAdd
    (agg1 (m ((c : Thread nD τ).loc main_arg1)) (matProd (m ((c : Thread nD τ).loc main_arg0)) (m ((c : Thread nD τ).loc main_arg2))))
    (invCol (m ((c : Thread nD τ).loc main_arg1)))
    (addRow (matProd (m ((c : Thread nD τ).loc main_arg0)) (m ((c : Thread nD τ).loc main_arg3)))
      (shapeCast S1x128 (m ((c : Thread nD τ).loc main_arg4)) shapeCasts_S128_S1x128)))

theorem w4_v27_0 : W4 m ρ c (Proc.devRef .tc main_v27_0) = matProd (hiddenOf m c) (m ((c : Thread nD τ).loc main_arg5)) := by
  refine (W4_arr m ρ c 6).trans ((CombineLinear.finalH (V3 m ρ) c).trans ?_)
  show matProd (CombineLinear.hidden (W3 m ρ c (Proc.devRef .tc main_v25)) (W3 m ρ c (Proc.devRef .tc main_v12)) (W3 m ρ c (Proc.devRef .tc main_v14_1)))
    (W3 m ρ c (Proc.devRef .tc main_arg5)) = _
  rw [w3_v25, w3_v12, w3_v14_1, w3_arg5]; rfl

theorem w4_v27_1 : W4 m ρ c (Proc.devRef .tc main_v27_1)
    = addRow (matProd (hiddenOf m c) (m ((c : Thread nD τ).loc main_arg6))) (shapeCast S1x64 (m ((c : Thread nD τ).loc main_arg7)) shapeCasts_S64_S1x64) := by
  refine (W4_arr m ρ c 7).trans ((CombineLinear.finalS (V3 m ρ) c).trans ?_)
  show addRow (matProd (CombineLinear.hidden (W3 m ρ c (Proc.devRef .tc main_v25)) (W3 m ρ c (Proc.devRef .tc main_v12)) (W3 m ρ c (Proc.devRef .tc main_v14_1)))
    (W3 m ρ c (Proc.devRef .tc main_arg6))) (W3 m ρ c (Proc.devRef .tc main_v26)) = _
  rw [w3_v25, w3_v12, w3_v14_1, w3_arg6, w3_v26]; rfl

theorem w4_v1 : W4 m ρ c (Proc.devRef .tc main_v1) = srcRaw (m ((c : Thread nD τ).loc main_arg1)) :=
  (W4_of_ne m ρ c main_v1 (by decide)).trans (w3_v1 m ρ c)
theorem w4_v3 : W4 m ρ c (Proc.devRef .tc main_v3) = dstRaw (m ((c : Thread nD τ).loc main_arg1)) :=
  (W4_of_ne m ρ c main_v3 (by decide)).trans (w3_v3 m ρ c)
/-- The reciprocal column is an input of the second call: it leaves it as it entered. -/
theorem w4_v12 : W4 m ρ c (Proc.devRef .tc main_v12) = invCol (m ((c : Thread nD τ).loc main_arg1)) :=
  ((W4_arr m ρ c 1).trans (((dat1 (V3 m ρ) c).arrAt_in 1 rfl _).trans (A_eq1 (V3 m ρ) c 1))).trans (w3_v12 m ρ c)

/-! ## Boundary 5: after the third stretch of host operations -/

theorem w5_v38 : W5 m ρ c (Proc.devRef .tc main_v38)
    = agg2 (m ((c : Thread nD τ).loc main_arg1)) (matProd (hiddenOf m c) (m ((c : Thread nD τ).loc main_arg5))) := by
  dsimp only [W5, hostOps2]; after_results
  rw [w4_v27_0, w4_v1, w4_v3]; rfl
theorem w5_v12 : W5 m ρ c (Proc.devRef .tc main_v12) = invCol (m ((c : Thread nD τ).loc main_arg1)) := by
  dsimp only [W5, hostOps2]; after_results; exact w4_v12 m ρ c
theorem w5_v27_1 : W5 m ρ c (Proc.devRef .tc main_v27_1)
    = addRow (matProd (hiddenOf m c) (m ((c : Thread nD τ).loc main_arg6))) (shapeCast S1x64 (m ((c : Thread nD τ).loc main_arg7)) shapeCasts_S64_S1x64) := by
  dsimp only [W5, hostOps2]; after_results; exact w4_v27_1 m ρ c

/-! ## Boundary 6: after the third call -/

/-- The result buffer at the end: the second layer over the first layer's positive part, of the launch arrays. -/
theorem w6_result : W6 m ρ c (Proc.devRef .tc main_v39)
    = scaleAdd (agg2 (m ((c : Thread nD τ).loc main_arg1)) (matProd (hiddenOf m c) (m ((c : Thread nD τ).loc main_arg5))))
        (invCol (m ((c : Thread nD τ).loc main_arg1)))
        (addRow (matProd (hiddenOf m c) (m ((c : Thread nD τ).loc main_arg6))) (shapeCast S1x64 (m ((c : Thread nD τ).loc main_arg7)) shapeCasts_S64_S1x64)) := by
  refine (W6_arr m ρ c 3).trans ((MeanCombine.final (V5 m ρ) c).trans ?_)
  show scaleAdd (W5 m ρ c (Proc.devRef .tc main_v38)) (W5 m ρ c (Proc.devRef .tc main_v12)) (W5 m ρ c (Proc.devRef .tc main_v27_1)) = _
  rw [w5_v38, w5_v12, w5_v27_1]

end Cert.KernelIdeal.Chain

end
-- ==== Proof.Reference.lean ====
/-
  The reference program read as the two-layer graph convolution of the specification: its matrix products are the
  specification's `matProd`, its division by the clamped in-degree is the scaling by the reciprocal column, its two
  bias broadcasts are `addRow` of a row, and the maximum with the zero array is the positive part. The gather and the
  scatter-with-sum are never opened: they are the same functions of whole arrays on both sides.
-/
import proofs.«114476_j46712064311554_2_alg».proof.Proof.Gen.ReferenceIdeal.Read
import proofs.«114476_j46712064311554_2_alg».proof.Proof.Spec
import Idealize.ShloMosaic.Lib.ValueIdx
import Idealize.ShloMosaic.Lib.Pipeline.Value
import Idealize.ShloMosaic.PureOps.Ideal.Laws
import Idealize.ShloMosaic.Lib.IdealHost

noncomputable section

namespace Cert.ReferenceIdeal.RefValue

open Cert.ReferenceIdeal Cert.ReferenceIdeal.Read Cert.GraphConv Idealize.ShloMosaic Idealize.ShloMosaic.ValueIdx
open scoped BigOperators

/-- The first layer's edge aggregation: gather the rows at the source nodes, sum them into the destination rows. -/
abbrev agg1 (x1 : (⟨S2x800000, .i32⟩ : BufTy).Contents (Elt Ideal)) :
    ((⟨2, ![50000, 128]⟩ : Shape).Idx → EReal) → ((⟨2, ![50000, 128]⟩ : Shape).Idx → EReal) :=
  fun H => Host.scatterAdd (F := Ideal) (φ := .f32) scatter_S50000x128_S800000x1_S800000x128_1_0_0_1 (val_main_v12 (F := Ideal)) (val_main_v13 (F := Ideal) x1) (Host.gather gather_S50000x128_S800000x1_S800000x128_1_0_n_n_0_1_1128 H (val_main_v10 (F := Ideal) x1))

/-- The second layer's edge aggregation, on 64 columns. -/
abbrev agg2 (x1 : (⟨S2x800000, .i32⟩ : BufTy).Contents (Elt Ideal)) :
    ((⟨2, ![50000, 64]⟩ : Shape).Idx → EReal) → ((⟨2, ![50000, 64]⟩ : Shape).Idx → EReal) :=
  fun H => Host.scatterAdd (F := Ideal) (φ := .f32) scatter_S50000x64_S800000x1_S800000x64_1_0_0_1 (val_main_v38 (F := Ideal)) (val_main_v39 (F := Ideal) x1) (Host.gather gather_S50000x64_S800000x1_S800000x64_1_0_n_n_0_1_164 H (val_main_v36 (F := Ideal) x1))

/-! ## The four matrix products -/

theorem prod_v4 (x0 : (⟨S50000x128, .f32⟩ : BufTy).Contents (Elt Ideal)) (x2 : (⟨S128x128, .f32⟩ : BufTy).Contents (Elt Ideal)) :
    val_main_v4 (F := Ideal) x0 x2 = matProd x0 x2 := by
  funext i
  rw [val_main_v4_apply]
  unfold matProd
  refine Finset.sum_congr rfl fun k _ => ?_
  have el : lidx_main_v4 i k = ix2 (⟨(i 0).val, (i 0).isLt⟩ : Fin 50000) k :=
    funext fun a => Fin.ext (by match a with | ⟨0, _⟩ => rfl | ⟨1, _⟩ => rfl)
  have er : ridx_main_v4 i k = ix2 k (⟨(i 1).val, (i 1).isLt⟩ : Fin 128) :=
    funext fun a => Fin.ext (by match a with | ⟨0, _⟩ => rfl | ⟨1, _⟩ => rfl)
  rw [el, er]

theorem prod_v24 (x0 : (⟨S50000x128, .f32⟩ : BufTy).Contents (Elt Ideal)) (x3 : (⟨S128x128, .f32⟩ : BufTy).Contents (Elt Ideal)) :
    val_main_v24 (F := Ideal) x0 x3 = matProd x0 x3 := by
  funext i
  rw [val_main_v24_apply]
  unfold matProd
  refine Finset.sum_congr rfl fun k _ => ?_
  have el : lidx_main_v24 i k = ix2 (⟨(i 0).val, (i 0).isLt⟩ : Fin 50000) k :=
    funext fun a => Fin.ext (by match a with | ⟨0, _⟩ => rfl | ⟨1, _⟩ => rfl)
  have er : ridx_main_v24 i k = ix2 k (⟨(i 1).val, (i 1).isLt⟩ : Fin 128) :=
    funext fun a => Fin.ext (by match a with | ⟨0, _⟩ => rfl | ⟨1, _⟩ => rfl)
  rw [el, er]

theorem prod_v30 (x0 : (⟨S50000x128, .f32⟩ : BufTy).Contents (Elt Ideal)) (x1 : (⟨S2x800000, .i32⟩ : BufTy).Contents (Elt Ideal)) (x2 x3 : (⟨S128x128, .f32⟩ : BufTy).Contents (Elt Ideal)) (x4 : (⟨S128, .f32⟩ : BufTy).Contents (Elt Ideal)) (x5 : (⟨S128x64, .f32⟩ : BufTy).Contents (Elt Ideal)) :
    val_main_v30 (F := Ideal) x0 x1 x2 x3 x4 x5 = matProd (val_main_v29 (F := Ideal) x0 x1 x2 x3 x4) x5 := by
  funext i
  rw [val_main_v30_apply]
  unfold matProd
  refine Finset.sum_congr rfl fun k _ => ?_
  have el : lidx_main_v30 i k = ix2 (⟨(i 0).val, (i 0).isLt⟩ : Fin 50000) k :=
    funext fun a => Fin.ext (by match a with | ⟨0, _⟩ => rfl | ⟨1, _⟩ => rfl)
  have er : ridx_main_v30 i k = ix2 k (⟨(i 1).val, (i 1).isLt⟩ : Fin 64) :=
    funext fun a => Fin.ext (by match a with | ⟨0, _⟩ => rfl | ⟨1, _⟩ => rfl)
  rw [el, er]

theorem prod_v50 (x0 : (⟨S50000x128, .f32⟩ : BufTy).Contents (Elt Ideal)) (x1 : (⟨S2x800000, .i32⟩ : BufTy).Contents (Elt Ideal)) (x2 x3 : (⟨S128x128, .f32⟩ : BufTy).Contents (Elt Ideal)) (x4 : (⟨S128, .f32⟩ : BufTy).Contents (Elt Ideal)) (x6 : (⟨S128x64, .f32⟩ : BufTy).Contents (Elt Ideal)) :
    val_main_v50 (F := Ideal) x0 x1 x2 x3 x4 x6 = matProd (val_main_v29 (F := Ideal) x0 x1 x2 x3 x4) x6 := by
  funext i
  rw [val_main_v50_apply]
  unfold matProd
  refine Finset.sum_congr rfl fun k _ => ?_
  have el : lidx_main_v50 i k = ix2 (⟨(i 0).val, (i 0).isLt⟩ : Fin 50000) k :=
    funext fun a => Fin.ext (by match a with | ⟨0, _⟩ => rfl | ⟨1, _⟩ => rfl)
  have er : ridx_main_v50 i k = ix2 k (⟨(i 1).val, (i 1).isLt⟩ : Fin 64) :=
    funext fun a => Fin.ext (by match a with | ⟨0, _⟩ => rfl | ⟨1, _⟩ => rfl)
  rw [el, er]

/-! ## One entry of a layer -/

/-- `a / max c 1 + p + b = a · (1 / max c 1) + (p + b)` on the extended reals: the reciprocal law and the
    associativity of the sum (no finiteness is needed). -/
theorem entry_eq (a c p b : EReal) :
    Ideal.div a (max c (Ideal.ofBits .f32 0x3F800000#32)) + p + b
      = a * Ideal.div (Ideal.ofBits .f32 0x3F800000#32) (max c (Ideal.ofBits .f32 0x3F800000#32)) + (p + b) := by
  rw [mul_recip_eq_div, add_assoc]

/-- The two in-degree counts are one term. -/
theorem cnt2_eq (x1 : (⟨S2x800000, .i32⟩ : BufTy).Contents (Elt Ideal)) :
    val_main_v44 (F := Ideal) x1 = val_main_v18 (F := Ideal) x1 := rfl

/-! ## The first layer -/

/-- The clamped count broadcast over 128 columns, at an entry. -/
theorem v22_at (x1 : (⟨S2x800000, .i32⟩ : BufTy).Contents (Elt Ideal)) (i : S50000x128.Idx) :
    val_main_v22 (F := Ideal) x1 i
      = max (val_main_v18 (F := Ideal) x1 (ix1 (⟨(i 0).val, (i 0).isLt⟩ : Fin 50000))) (Ideal.ofBits .f32 0x3F800000#32) := by
  rw [val_main_v22_apply, val_main_v21_apply, val_main_v20_apply, val_main_v19_apply, val_main_cst_3_apply]
  have e : idx_main_v21 (idx_main_v22 i) = ix1 (⟨(i 0).val, (i 0).isLt⟩ : Fin 50000) :=
    funext fun a => by match a with | ⟨0, _⟩ => rfl
  rw [e]
  rfl

/-- The first bias broadcast over the rows, at an entry. -/
theorem v27_at (x4 : (⟨S128, .f32⟩ : BufTy).Contents (Elt Ideal)) (i : S50000x128.Idx) :
    val_main_v27 (F := Ideal) x4 i = rowOf x4 (ix2 (0 : Fin 1) (⟨(i 1).val, (i 1).isLt⟩ : Fin 128)) := by
  rw [val_main_v27_apply, val_main_v26_apply]
  unfold rowOf
  exact congrArg x4 (funext fun a => by match a with | ⟨0, _⟩ => rfl)

theorem layer1_eq (x0 : (⟨S50000x128, .f32⟩ : BufTy).Contents (Elt Ideal)) (x1 : (⟨S2x800000, .i32⟩ : BufTy).Contents (Elt Ideal)) (x2 x3 : (⟨S128x128, .f32⟩ : BufTy).Contents (Elt Ideal)) (x4 : (⟨S128, .f32⟩ : BufTy).Contents (Elt Ideal)) :
    val_main_v28 (F := Ideal) x0 x1 x2 x3 x4
      = layer (agg1 x1) (recipCol (val_main_v18 (F := Ideal) x1)) x0 x2 x3 (rowOf x4) := by
  have hA : val_main_v14 (F := Ideal) x0 x1 x2 = agg1 x1 (matProd x0 x2) := by
    rw [← prod_v4]; rfl
  funext i
  rw [val_main_v28_apply, val_main_v25_apply, val_main_v23_apply, v22_at, v27_at, hA, prod_v24]
  exact entry_eq _ _ _ _

/-! ## The positive part between the layers -/

theorem relu_eq (x0 : (⟨S50000x128, .f32⟩ : BufTy).Contents (Elt Ideal)) (x1 : (⟨S2x800000, .i32⟩ : BufTy).Contents (Elt Ideal)) (x2 x3 : (⟨S128x128, .f32⟩ : BufTy).Contents (Elt Ideal)) (x4 : (⟨S128, .f32⟩ : BufTy).Contents (Elt Ideal)) :
    val_main_v29 (F := Ideal) x0 x1 x2 x3 x4
      = Cert.GraphConv.posPart (layer (agg1 x1) (recipCol (val_main_v18 (F := Ideal) x1)) x0 x2 x3 (rowOf x4)) := by
  funext i
  rw [val_main_v29_apply, val_main_call0_v0_apply, val_main_call0_cst_apply, layer1_eq]
  rfl

/-! ## The second layer -/

/-- The clamped count broadcast over 64 columns, at an entry. -/
theorem v48_at (x1 : (⟨S2x800000, .i32⟩ : BufTy).Contents (Elt Ideal)) (i : S50000x64.Idx) :
    val_main_v48 (F := Ideal) x1 i
      = max (val_main_v18 (F := Ideal) x1 (ix1 (⟨(i 0).val, (i 0).isLt⟩ : Fin 50000))) (Ideal.ofBits .f32 0x3F800000#32) := by
  rw [val_main_v48_apply, val_main_v47_apply, val_main_v46_apply, val_main_v45_apply, val_main_cst_9_apply, cnt2_eq]
  have e : idx_main_v47 (idx_main_v48 i) = ix1 (⟨(i 0).val, (i 0).isLt⟩ : Fin 50000) :=
    funext fun a => by match a with | ⟨0, _⟩ => rfl
  rw [e]
  rfl

/-- The second bias broadcast over the rows, at an entry. -/
theorem v53_at (x7 : (⟨S64, .f32⟩ : BufTy).Contents (Elt Ideal)) (i : S50000x64.Idx) :
    val_main_v53 (F := Ideal) x7 i = rowOf x7 (ix2 (0 : Fin 1) (⟨(i 1).val, (i 1).isLt⟩ : Fin 64)) := by
  rw [val_main_v53_apply, val_main_v52_apply]
  unfold rowOf
  exact congrArg x7 (funext fun a => by match a with | ⟨0, _⟩ => rfl)

theorem layer2_eq (x0 : (⟨S50000x128, .f32⟩ : BufTy).Contents (Elt Ideal)) (x1 : (⟨S2x800000, .i32⟩ : BufTy).Contents (Elt Ideal)) (x2 x3 : (⟨S128x128, .f32⟩ : BufTy).Contents (Elt Ideal)) (x4 : (⟨S128, .f32⟩ : BufTy).Contents (Elt Ideal)) (x5 x6 : (⟨S128x64, .f32⟩ : BufTy).Contents (Elt Ideal)) (x7 : (⟨S64, .f32⟩ : BufTy).Contents (Elt Ideal)) :
    val_main_v54 (F := Ideal) x0 x1 x2 x3 x4 x5 x6 x7
      = layer (agg2 x1) (recipCol (val_main_v18 (F := Ideal) x1)) (val_main_v29 (F := Ideal) x0 x1 x2 x3 x4) x5 x6 (rowOf x7) := by
  have hA : val_main_v40 (F := Ideal) x0 x1 x2 x3 x4 x5 = agg2 x1 (matProd (val_main_v29 (F := Ideal) x0 x1 x2 x3 x4) x5) := by
    rw [← prod_v30]; rfl
  funext i
  rw [val_main_v54_apply, val_main_v51_apply, val_main_v49_apply, v48_at, v53_at, hA, prod_v50]
  exact entry_eq _ _ _ _

/-! ## The reference is the network -/

theorem ref_is_network (x0 : (⟨S50000x128, .f32⟩ : BufTy).Contents (Elt Ideal)) (x1 : (⟨S2x800000, .i32⟩ : BufTy).Contents (Elt Ideal)) (x2 x3 : (⟨S128x128, .f32⟩ : BufTy).Contents (Elt Ideal)) (x4 : (⟨S128, .f32⟩ : BufTy).Contents (Elt Ideal)) (x5 x6 : (⟨S128x64, .f32⟩ : BufTy).Contents (Elt Ideal)) (x7 : (⟨S64, .f32⟩ : BufTy).Contents (Elt Ideal)) :
    val_main_v54 (F := Ideal) x0 x1 x2 x3 x4 x5 x6 x7
      = network
          (fun H => Host.scatterAdd (F := Ideal) (φ := .f32) scatter_S50000x128_S800000x1_S800000x128_1_0_0_1 (val_main_v12 (F := Ideal)) (val_main_v13 (F := Ideal) x1) (Host.gather gather_S50000x128_S800000x1_S800000x128_1_0_n_n_0_1_1128 H (val_main_v10 (F := Ideal) x1)))
          (fun H => Host.scatterAdd (F := Ideal) (φ := .f32) scatter_S50000x64_S800000x1_S800000x64_1_0_0_1 (val_main_v38 (F := Ideal)) (val_main_v39 (F := Ideal) x1) (Host.gather gather_S50000x64_S800000x1_S800000x64_1_0_n_n_0_1_164 H (val_main_v36 (F := Ideal) x1)))
          (recipCol (val_main_v18 (F := Ideal) x1)) x0 x2 x3 (rowOf x4) x5 x6 (rowOf x7) := by
  rw [layer2_eq, relu_eq]
  rfl

end Cert.ReferenceIdeal.RefValue

end
-- ==== Proof.Layout.lean ====
/-
  The kernel program's three reshapes, read as the specification's column and rows: a vector of 50000 reciprocals of
  clamped counts reshaped to a 50000 × 1 column is `recipCol`, and a bias vector of n entries reshaped to a 1 × n
  array is `rowOf`. A reshape keeps the row-major position, and each of these shapes has one axis of extent one,
  so the position is the other coordinate.
-/
import proofs.«114476_j46712064311554_2_alg».proof.KernelIdeal
import proofs.«114476_j46712064311554_2_alg».proof.Proof.Spec
import Idealize.ShloMosaic.Lib.Pipeline.Value
import Idealize.ShloMosaic.Lib.ValueIdx
import Idealize.ShloMosaic.Lib.IdealHost
import Idealize.ShloMosaic.PureOps.Ideal.Laws

noncomputable section

namespace Cert.KernelIdeal.Layout

open Cert.KernelIdeal Cert.GraphConv Idealize.ShloMosaic Idealize.ShloMosaic.ValueIdx

variable [Cert.KernelIdeal.Facts]
open Cert.KernelIdeal.Facts₀ Cert.KernelIdeal.Facts

/-- The vector `1 / max cnt 1` reshaped to a column is the reciprocal column of the counts. -/
theorem recip_reshape (cnt : (⟨S50000, .f32⟩ : BufTy).Contents (Elt Ideal)) :
    shapeCast S50000x1 (Host.divf (F := Ideal) (broadcastInDim S50000 ![] bcast_S_S50000 (constant (F := Ideal) S_ .f32 0x3F800000#32))
      (maximumf cnt (broadcastInDim S50000 ![] bcast_S_S50000 (constant (F := Ideal) S_ .f32 0x3F800000#32)))) shapeCasts_S50000_S50000x1
      = recipCol cnt := by
  funext i
  have h1 : (i 1).val < 1 := (i 1).isLt
  refine (shapeCast_apply _ shapeCasts_S50000_S50000x1 i (ix1 (⟨(i 0).val, (i 0).isLt⟩ : Fin 50000)) ?_).trans ?_
  · rewrite [Shape.rowMajor_val_two, Shape.rowMajor_val_one]
    show (i 0).val = (i 0).val * 1 + (i 1).val
    omega
  · rw [hostDivf_apply]
    rfl

/-- A vector of 128 entries reshaped to a 1 × 128 array is that row. -/
theorem row128 (b : (⟨S128, .f32⟩ : BufTy).Contents (Elt Ideal)) : shapeCast S1x128 b shapeCasts_S128_S1x128 = rowOf b := by
  funext i
  have h0 : (i 0).val < 1 := (i 0).isLt
  refine (shapeCast_apply b shapeCasts_S128_S1x128 i (ix1 (⟨(i 1).val, (i 1).isLt⟩ : Fin 128)) ?_).trans rfl
  rewrite [Shape.rowMajor_val_two, Shape.rowMajor_val_one]
  show (i 1).val = (i 0).val * 128 + (i 1).val
  omega

/-- A vector of 64 entries reshaped to a 1 × 64 array is that row. -/
theorem row64 (b : (⟨S64, .f32⟩ : BufTy).Contents (Elt Ideal)) : shapeCast S1x64 b shapeCasts_S64_S1x64 = rowOf b := by
  funext i
  have h0 : (i 0).val < 1 := (i 0).isLt
  refine (shapeCast_apply b shapeCasts_S64_S1x64 i (ix1 (⟨(i 1).val, (i 1).isLt⟩ : Fin 64)) ?_).trans rfl
  rewrite [Shape.rowMajor_val_two, Shape.rowMajor_val_one]
  show (i 1).val = (i 0).val * 64 + (i 1).val
  omega

end Cert.KernelIdeal.Layout

end
-- ==== Proof.Bridge.lean ====
/-
  The kernel program's result and the reference's are one function of the launch arrays: the two-layer network of
  the specification over the SAME edge aggregations. The kernel's host operations between its calls are the
  reference's own (the same slices of the edge list, the same gathers and sums into destination rows, read here at
  the extended reals where a change of float format is the identity); its reciprocal column is the reshaped
  quotient `1 / max count 1`; its bias rows are the reshaped bias vectors.
-/
import proofs.«114476_j46712064311554_2_alg».proof.Proof.HostChain
import proofs.«114476_j46712064311554_2_alg».proof.Proof.Reference
import proofs.«114476_j46712064311554_2_alg».proof.Proof.Layout

set_option maxRecDepth 16384

noncomputable section

namespace Cert.Proof.Bridge

open Idealize.ShloMosaic Idealize.ShloMosaic.TcCoe Idealize.SL.Sem Idealize.ShloMosaic.ValueIdx
open Cert.GraphConv

/-- The kernel's first aggregation is the reference's (the widening of the gathered rows is the identity). -/
theorem agg1_eq (E : (⟨Cert.KernelIdeal.S2x800000, .i32⟩ : BufTy).Contents (Elt Ideal)) (H : (⟨2, ![50000, 128]⟩ : Shape).Idx → EReal) :
    Cert.KernelIdeal.Chain.agg1 E H = Cert.ReferenceIdeal.RefValue.agg1 E H := rfl

theorem agg2_eq (E : (⟨Cert.KernelIdeal.S2x800000, .i32⟩ : BufTy).Contents (Elt Ideal)) (H : (⟨2, ![50000, 64]⟩ : Shape).Idx → EReal) :
    Cert.KernelIdeal.Chain.agg2 E H = Cert.ReferenceIdeal.RefValue.agg2 E H := rfl

/-- The kernel's in-degrees are the reference's. -/
theorem counts_eq (E : (⟨Cert.KernelIdeal.S2x800000, .i32⟩ : BufTy).Contents (Elt Ideal)) :
    Cert.KernelIdeal.Chain.counts E = Cert.ReferenceIdeal.Read.val_main_v18 (F := Ideal) E := rfl

/-- The kernel's reciprocal column is the specification's, of the reference's in-degrees. -/
theorem invCol_eq (E : (⟨Cert.KernelIdeal.S2x800000, .i32⟩ : BufTy).Contents (Elt Ideal)) :
    Cert.KernelIdeal.Chain.invCol E = recipCol (Cert.ReferenceIdeal.Read.val_main_v18 (F := Ideal) E) := by
  rw [← counts_eq]
  exact Cert.KernelIdeal.Layout.recip_reshape (Cert.KernelIdeal.Chain.counts E)

open Cert.KernelIdeal Cert.KernelIdeal.Gen in
/-- The kernel program's result buffer at the end of the run, as the network of the launch arrays. -/
theorem kernel_is_network (m : (ℓ : Loc nD τ sig) → Buf (Elt Ideal) ℓ) (ρ : Dev nD → PrngReg) (c : Dev nD) :
    W6 m ρ c (Proc.devRef .tc main_v39)
      = network (Cert.ReferenceIdeal.RefValue.agg1 (m ((c : Thread nD τ).loc main_arg1))) (Cert.ReferenceIdeal.RefValue.agg2 (m ((c : Thread nD τ).loc main_arg1)))
          (recipCol (Cert.ReferenceIdeal.Read.val_main_v18 (F := Ideal) (m ((c : Thread nD τ).loc main_arg1))))
          (m ((c : Thread nD τ).loc main_arg0)) (m ((c : Thread nD τ).loc main_arg2)) (m ((c : Thread nD τ).loc main_arg3))
          (rowOf (m ((c : Thread nD τ).loc main_arg4))) (m ((c : Thread nD τ).loc main_arg5)) (m ((c : Thread nD τ).loc main_arg6))
          (rowOf (m ((c : Thread nD τ).loc main_arg7))) := by
  rw [Cert.KernelIdeal.Chain.w6_result]
  unfold Cert.KernelIdeal.Chain.hiddenOf
  rw [invCol_eq, Cert.KernelIdeal.Layout.row128, Cert.KernelIdeal.Layout.row64]
  rfl

end Cert.Proof.Bridge

end
-- ==== Proof.lean ====
/-
  The certificate: the Pallas program (three row-tiled kernel calls among host gathers and segment sums) and its
  jnp reference compute, over the extended reals, the same two-layer graph convolution of the eight argument arrays.
  The three frames are the generated ones (the reference's is its generated run with the result dropped); the ideal
  pass rewrote nothing, so the idealization claim is trivial; the algebraic claim puts the kernel program's run (the
  result buffer at the last segment boundary, read back boundary by boundary to the launch arrays) beside the
  reference's run (read operation by operation), both at the specification's `network` of arguments that agree.
  The one law between the two sides is that scaling a row by `1 / max count 1` is dividing it by `max count 1`,
  which holds on all extended reals because the divisor is not zero; sums are re-associated, which the extended
  reals allow without any finiteness.
-/
import proofs.«114476_j46712064311554_2_alg».proof.Defs
import proofs.«114476_j46712064311554_2_alg».proof.Proof.Gen.Kernel
import proofs.«114476_j46712064311554_2_alg».proof.Proof.Gen.Kernel.Skeleton
import proofs.«114476_j46712064311554_2_alg».proof.Proof.Gen.Kernel.Launch
import proofs.«114476_j46712064311554_2_alg».proof.Proof.Gen.Kernel.Points
import proofs.«114476_j46712064311554_2_alg».proof.Proof.Gen.Kernel.Frame
import proofs.«114476_j46712064311554_2_alg».proof.Proof.Gen.KernelIdeal
import proofs.«114476_j46712064311554_2_alg».proof.Proof.Gen.KernelIdeal.Skeleton
import proofs.«114476_j46712064311554_2_alg».proof.Proof.Gen.KernelIdeal.Launch
import proofs.«114476_j46712064311554_2_alg».proof.Proof.Gen.KernelIdeal.Points
import proofs.«114476_j46712064311554_2_alg».proof.Proof.Gen.KernelIdeal.Frame
import proofs.«114476_j46712064311554_2_alg».proof.Proof.Gen.ReferenceIdeal
import proofs.«114476_j46712064311554_2_alg».proof.Proof.Gen.Pre_finite_inputs
import proofs.«114476_j46712064311554_2_alg».proof.Proof.Gen.ReferenceIdeal.Run
import proofs.«114476_j46712064311554_2_alg».proof.Proof.Gen.ReferenceIdeal.Read
import proofs.«114476_j46712064311554_2_alg».proof.Proof.KernelRun
import proofs.«114476_j46712064311554_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the network of the launch arrays: the kernel program by its run and the boundary read-back,
    the reference by its run and the read of its operations, the arguments' agreement rewritten in between. -/
theorem algebraic : Cert.algebraic_KernelIdeal_ReferenceIdeal := by
  intro m ρ m' ρ' _ hagree
  refine ⟨fun c => Cert.KernelIdeal.Gen.W6 m ρ c (Proc.devRef .tc Cert.KernelIdeal.main_v39), Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v54_eq, Cert.ReferenceIdeal.RefValue.ref_is_network,
    (hagree c).1, (hagree c).2.1, (hagree c).2.2.1, (hagree c).2.2.2.1, (hagree c).2.2.2.2.1, (hagree c).2.2.2.2.2.1,
    (hagree c).2.2.2.2.2.2.1, (hagree c).2.2.2.2.2.2.2]
  exact (Cert.Proof.Bridge.kernel_is_network m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
